-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x67108864 : Shape := ⟨2, ![1, 67108864]⟩
abbrev S_ : Shape := ⟨0, ![]⟩

class Facts : Prop where
  bcast_S_S1x67108864 : S_.BroadcastsInDim S1x67108864 (![] : Fin 0 → Fin S1x67108864.rank)
  reducesTo_S1x67108864_S_d0_1 : S1x67108864.ReducesTo [0, 1] S_
  h_S_ : 0 < S_.numel

variable [Facts]

def fn {F : FTy → Type} [FloatOps F] (main_arg0 : FVec F S1x67108864 .f32) (main_arg1 : FVec F S1x67108864 .f32) : IVec S_ 1 :=
  let main_v0 : FVec F S1x67108864 .f32 := Host.absf main_arg0
  let main_cst : FVec F S_ .f32 := constant S_ .f32 0x7F800000#32
  let main_v1 : FVec F S1x67108864 .f32 := broadcastInDim S1x67108864 ![] bcast_S_S1x67108864 main_cst
  let main_v2 : IVec S1x67108864 1 := cmpf .olt main_v0 main_v1
  let main_c : IVec S_ 1 := constantI S_ 1 1#1
  let main_v3 : IVec S_ 1 := (fun x v => Host.reduce IntOp.andi x v reducesTo_S1x67108864_S_d0_1 h_S_) main_v2 main_c
  let main_v4 : FVec F S1x67108864 .f32 := Host.absf main_arg1
  let main_cst_0 : FVec F S_ .f32 := constant S_ .f32 0x7F800000#32
  let main_v5 : FVec F S1x67108864 .f32 := broadcastInDim S1x67108864 ![] bcast_S_S1x67108864 main_cst_0
  let main_v6 : IVec S1x67108864 1 := cmpf .olt main_v4 main_v5
  let main_c_1 : IVec S_ 1 := constantI S_ 1 1#1
  let main_v7 : IVec S_ 1 := (fun x v => Host.reduce IntOp.andi x v reducesTo_S1x67108864_S_d0_1 h_S_) main_v6 main_c_1
  let main_v8 : IVec S_ 1 := andi main_v3 main_v7
  main_v8
-- ==== Kernel.lean ====
abbrev S1x67108864 : Shape := ⟨2, ![1, 67108864]⟩
abbrev S8192x8192 : Shape := ⟨2, ![8192, 8192]⟩
abbrev S2x128x1 : Shape := ⟨3, ![2, 128, 1]⟩
abbrev S128x8192 : Shape := ⟨2, ![128, 8192]⟩
abbrev S1x128x1 : Shape := ⟨3, ![1, 128, 1]⟩
abbrev S128x1 : Shape := ⟨2, ![128, 1]⟩
abbrev S128 : Shape := ⟨1, ![128]⟩
abbrev S_ : Shape := ⟨0, ![]⟩

abbrev nBuf : Space → Nat
  | .hbm => 32
  | .vmem => 13
  | .smem => 0
  | _ => 0

abbrev bufTy : (tb : Table) → Fin (tcTables nBuf tb) → BufTy
  | .hbm, ⟨0, _⟩ => ⟨S1x67108864, .f32⟩
  | .hbm, ⟨1, _⟩ => ⟨S1x67108864, .f32⟩
  | .hbm, ⟨2, _⟩ => ⟨S8192x8192, .f32⟩
  | .hbm, ⟨3, _⟩ => ⟨S8192x8192, .f32⟩
  | .hbm, ⟨4, _⟩ => ⟨S2x128x1, .f32⟩
  | .hbm, ⟨5, _⟩ => ⟨S2x128x1, .f32⟩
  | .hbm, ⟨6, _⟩ => ⟨S2x128x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S1x128x1, .f32⟩
  | .local _ .vmem, ⟨5, _⟩ => ⟨S1x128x1, .f32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | .local _ .vmem, ⟨10, _⟩ => ⟨S128x1, .f32⟩
  | .local _ .vmem, ⟨11, _⟩ => ⟨S128x1, .f32⟩
  | .local _ .vmem, ⟨12, _⟩ => ⟨S128x1, .f32⟩
  | _, _ => ⟨S1x67108864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v37 : BitVec 1 := Scalar.cmpi .eq arg1 c31_i32
  let v38 : BitVec 32 := Scalar.extui v37
  let c0_i32_20 : BitVec 32 := 0#32
  let v39 : BitVec 1 := Scalar.cmpi .ne v38 c0_i32_20
  v39

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1x67108864_S8192x8192 : S1x67108864.ShapeCasts S8192x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  natLt_1_32 : 1 < 32
  reduces_S128x8192_S128 : S128x8192.Reduces [1] S128
  shapeCasts_S128_S128x1 : S128.ShapeCasts S128x1
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  reducesTo_S2x128x1_S_d0_1_2 : S2x128x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S2x128x1.size a
  hwx0_2 : ∀ i : grid0.Coords, EltTy.bits .f32 = 32 ∨ (Rect.block (s := S2x128x1) S1x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S2x128x1.size a
  hwx0_3 : ∀ i : grid0.Coords, EltTy.bits .f32 = 32 ∨ (Rect.block (s := S2x128x1) S1x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1.size a ≤ S2x128x1.size a
  hwx0_4 : ∀ i : grid0.Coords, EltTy.bits .f32 = 32 ∨ (Rect.block (s := S2x128x1) S1x128x1.size (cc0_transform_4 i) (hinb0_4 i)).WholeWords (EltTy.packing .f32)

variable [Facts₀]

abbrev win0_0 : Pipeline.Window sig grid0 :=
  Pipeline.Window.ofSpec (Memref.whole main_v0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x128x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1x67108864 : Shape := ⟨2, ![1, 67108864]⟩
abbrev S67108864 : Shape := ⟨1, ![67108864]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x67108864, .f32⟩
  | .hbm, ⟨1, _⟩ => ⟨S1x67108864, .f32⟩
  | .hbm, ⟨2, _⟩ => ⟨S67108864, .f32⟩
  | .hbm, ⟨3, _⟩ => ⟨S67108864, .f32⟩
  | .hbm, ⟨4, _⟩ => ⟨S_, .f32⟩
  | .hbm, ⟨5, _⟩ => ⟨S67108864, .f32⟩
  | .hbm, ⟨6, _⟩ => ⟨S67108864, .i1⟩
  | .hbm, ⟨7, _⟩ => ⟨S_, .f32⟩
  | .hbm, ⟨8, _⟩ => ⟨S67108864, .f32⟩
  | .hbm, ⟨9, _⟩ => ⟨S67108864, .i1⟩
  | .hbm, ⟨10, _⟩ => ⟨S67108864, .i1⟩
  | .hbm, ⟨11, _⟩ => ⟨S67108864, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S67108864, .i1⟩
  | .hbm, ⟨17, _⟩ => ⟨S67108864, .i1⟩
  | .hbm, ⟨18, _⟩ => ⟨S67108864, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S67108864, .i1⟩
  | .hbm, ⟨24, _⟩ => ⟨S67108864, .i1⟩
  | .hbm, ⟨25, _⟩ => ⟨S67108864, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S1x67108864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  shapeCasts_S1x67108864_S67108864 : S1x67108864.ShapeCasts S67108864
  bcast_S_S67108864 : S_.BroadcastsInDim S67108864 (![] : Fin 0 → Fin S67108864.rank)
  reducesTo_S67108864_S_d0 : S67108864.ReducesTo [0] S_
  h_S_ : 0 < S_.numel

variable [Facts₀]

class Facts : Prop extends Facts₀ where

variable [Facts]
-- ==== Proof.Pieces.lean ====
import proofs.«178757_j26594437496976_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! What each case of the kernel body leaves behind, as values.

The body keeps three running row sums (of [t ≠ 0], of [l ≠ 0] and of their product) in three one-column scratch
buffers. At a grid point it (first step of a half only) clears them, then adds to each the row sums of the point's
blocks, and (last step of a half only) copies them out. Each lemma below says which arithmetic term of the point's two
input blocks and of the scratch contents found there one buffer holds afterwards. -/

namespace Cert.KernelIdeal.Pieces

open Cert.KernelIdeal Cert.KernelIdeal.Gen

variable {F : FTy → Type} [FloatOps F]
variable (c : Dev nD) (i : grid0.Coords)
  (a2 : Memref sig .tc .vmem S128x8192 .f32) (h2 : a2.IsWhole) (a3 : Memref sig .tc .vmem S128x8192 .f32) (h3 : a3.IsWhole)
  (a4 : Memref sig .tc .vmem S1x128x1 .f32) (h4 : a4.IsWhole) (a5 : Memref sig .tc .vmem S1x128x1 .f32) (h5 : a5.IsWhole)
  (a6 : Memref sig .tc .vmem S1x128x1 .f32) (h6 : a6.IsWhole)
  (a7 : Memref sig .tc .vmem S128x1 .f32) (h7 : a7.IsWhole) (a8 : Memref sig .tc .vmem S128x1 .f32) (h8 : a8.IsWhole)
  (a9 : Memref sig .tc .vmem S128x1 .f32) (h9 : a9.IsWhole)
  (x0 x1 : Vec F S128x8192 .f32) (xs0 xs1 xs2 : Vec F S128x1 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-! ## A first step: the sums start from the cleared buffers -/

theorem sA0 (hc0 : cond0_0 i) (hc1 : ¬cond0_1 i) :
    sout0_A_0 c i a2 h2 a3 h3 a4 h4 a5 h5 a6 h6 a7 h7 a8 h8 a9 h9 hc0 hc1 x0 x1 = k0_pay10 x0 k0_pay5 := by
  unfold sout0_A_0
  rw [View.read_writes_eq_canon _ _ _ (scover0_A_0 c i a2 h2 a3 h3 a4 h4 a5 h5 a6 h6 a7 h7 a8 h8 a9 h9 hc0 hc1 x0 x1)]
  unfold kernelRun0_A
  dsimp only
  sl_unfold_words
  rw [View.canon_cons_unit_zero (S := S128x1) hz2]
  simp only [View.readCov_unit_zero (S := S128x1) _ hz2, View.readAt_eq_ld, h2.read_unread, h3.read_unread, h7.read_unread, h8.read_unread, h9.read_unread, View.ld_unit_zero (S := S128x8192) hz2, View.ld_unit_zero (S := S128x1) hz2]

theorem sA1 (hc0 : cond0_0 i) (hc1 : ¬cond0_1 i) :
    sout0_A_1 c i a2 h2 a3 h3 a4 h4 a5 h5 a6 h6 a7 h7 a8 h8 a9 h9 hc0 hc1 x0 x1 = k0_pay11 x1 k0_pay6 := by
  unfold sout0_A_1
  rw [View.read_writes_eq_canon _ _ _ (scover0_A_1 c i a2 h2 a3 h3 a4 h4 a5 h5 a6 h6 a7 h7 a8 h8 a9 h9 hc0 hc1 x0 x1)]
  unfold kernelRun0_A
  dsimp only
  sl_unfold_words
  rw [View.canon_cons_unit_zero (S := S128x1) hz2]
  simp only [View.readCov_unit_zero (S := S128x1) _ hz2, View.readAt_eq_ld, h2.read_unread, h3.read_unread, h7.read_unread, h8.read_unread, h9.read_unread, View.ld_unit_zero (S := S128x8192) hz2, View.ld_unit_zero (S := S128x1) hz2]

theorem sA2 (hc0 : cond0_0 i) (hc1 : ¬cond0_1 i) :
    sout0_A_2 c i a2 h2 a3 h3 a4 h4 a5 h5 a6 h6 a7 h7 a8 h8 a9 h9 hc0 hc1 x0 x1 = k0_pay1 (k0_pay12 x0 x1 k0_pay7) := by
  unfold sout0_A_2
  rw [View.read_writes_eq_canon _ _ _ (scover0_A_2 c i a2 h2 a3 h3 a4 h4 a5 h5 a6 h6 a7 h7 a8 h8 a9 h9 hc0 hc1 x0 x1)]
  unfold kernelRun0_A
  dsimp only
  sl_unfold_words
  rw [View.canon_cons_unit_zero (S := S128x1) hz2]
  simp only [View.readCov_unit_zero (S := S128x1) _ hz2, View.readAt_eq_ld, h2.read_unread, h3.read_unread, h7.read_unread, h8.read_unread, h9.read_unread, View.ld_unit_zero (S := S128x8192) hz2, View.ld_unit_zero (S := S128x1) hz2]

/-! ## A middle step: the sums grow by the point's row sums -/

theorem sB0 (hc0 : ¬cond0_0 i) (hc1 : ¬cond0_1 i) :
    sout0_B_0 c i a2 h2 a3 h3 a4 h4 a5 h5 a6 h6 a7 h7 a8 h8 a9 h9 hc0 hc1 x0 x1 xs0 xs1 xs2 = k0_pay10 x0 xs0 := by
  unfold sout0_B_0
  rw [View.read_writes_eq_canon _ _ _ (scover0_B_0 c i a2 h2 a3 h3 a4 h4 a5 h5 a6 h6 a7 h7 a8 h8 a9 h9 hc0 hc1 x0 x1 xs0 xs1 xs2)]
  unfold kernelRun0_B
  dsimp only
  sl_unfold_words
  rw [View.canon_unit_zero hz2]
  simp only [View.readCov_unit_zero (S := S128x1) _ hz2, View.readAt_eq_ld, h2.read_unread, h3.read_unread, h7.read_unread, h8.read_unread, h9.read_unread, View.ld_unit_zero (S := S128x8192) hz2, View.ld_unit_zero (S := S128x1) hz2]

theorem sB1 (hc0 : ¬cond0_0 i) (hc1 : ¬cond0_1 i) :
    sout0_B_1 c i a2 h2 a3 h3 a4 h4 a5 h5 a6 h6 a7 h7 a8 h8 a9 h9 hc0 hc1 x0 x1 xs0 xs1 xs2 = k0_pay11 x1 xs1 := by
  unfold sout0_B_1
  rw [View.read_writes_eq_canon _ _ _ (scover0_B_1 c i a2 h2 a3 h3 a4 h4 a5 h5 a6 h6 a7 h7 a8 h8 a9 h9 hc0 hc1 x0 x1 xs0 xs1 xs2)]
  unfold kernelRun0_B
  dsimp only
  sl_unfold_words
  rw [View.canon_unit_zero hz2]
  simp only [View.readCov_unit_zero (S := S128x1) _ hz2, View.readAt_eq_ld, h2.read_unread, h3.read_unread, h7.read_unread, h8.read_unread, h9.read_unread, View.ld_unit_zero (S := S128x8192) hz2, View.ld_unit_zero (S := S128x1) hz2]

theorem sB2 (hc0 : ¬cond0_0 i) (hc1 : ¬cond0_1 i) :
    sout0_B_2 c i a2 h2 a3 h3 a4 h4 a5 h5 a6 h6 a7 h7 a8 h8 a9 h9 hc0 hc1 x0 x1 xs0 xs1 xs2 = k0_pay1 (k0_pay12 x0 x1 xs2) := by
  unfold sout0_B_2
  rw [View.read_writes_eq_canon _ _ _ (scover0_B_2 c i a2 h2 a3 h3 a4 h4 a5 h5 a6 h6 a7 h7 a8 h8 a9 h9 hc0 hc1 x0 x1 xs0 xs1 xs2)]
  unfold kernelRun0_B
  dsimp only
  sl_unfold_words
  rw [View.canon_unit_zero hz2]
  simp only [View.readCov_unit_zero (S := S128x1) _ hz2, View.readAt_eq_ld, h2.read_unread, h3.read_unread, h7.read_unread, h8.read_unread, h9.read_unread, View.ld_unit_zero (S := S128x8192) hz2, View.ld_unit_zero (S := S128x1) hz2]

/-! ## A last step: the same, and the three sums are copied to the outputs -/

theorem sC0 (hc0 : ¬cond0_0 i) (hc1 : cond0_1 i) :
    sout0_C_0 c i a2 h2 a3 h3 a4 h4 a5 h5 a6 h6 a7 h7 a8 h8 a9 h9 hc0 hc1 x0 x1 xs0 xs1 xs2 = k0_pay10 x0 xs0 := by
  unfold sout0_C_0
  rw [View.read_writes_eq_canon _ _ _ (scover0_C_0 c i a2 h2 a3 h3 a4 h4 a5 h5 a6 h6 a7 h7 a8 h8 a9 h9 hc0 hc1 x0 x1 xs0 xs1 xs2)]
  unfold kernelRun0_C
  dsimp only
  sl_unfold_words
  rw [View.canon_unit_zero hz2]
  simp only [View.readCov_unit_zero (S := S128x1) _ hz2, View.readAt_eq_ld, h2.read_unread, h3.read_unread, h7.read_unread, h8.read_unread, h9.read_unread, View.ld_unit_zero (S := S128x8192) hz2, View.ld_unit_zero (S := S128x1) hz2]

theorem sC1 (hc0 : ¬cond0_0 i) (hc1 : cond0_1 i) :
    sout0_C_1 c i a2 h2 a3 h3 a4 h4 a5 h5 a6 h6 a7 h7 a8 h8 a9 h9 hc0 hc1 x0 x1 xs0 xs1 xs2 = k0_pay11 x1 xs1 := by
  unfold sout0_C_1
  rw [View.read_writes_eq_canon _ _ _ (scover0_C_1 c i a2 h2 a3 h3 a4 h4 a5 h5 a6 h6 a7 h7 a8 h8 a9 h9 hc0 hc1 x0 x1 xs0 xs1 xs2)]
  unfold kernelRun0_C
  dsimp only
  sl_unfold_words
  rw [View.canon_unit_zero hz2]
  simp only [View.readCov_unit_zero (S := S128x1) _ hz2, View.readAt_eq_ld, h2.read_unread, h3.read_unread, h7.read_unread, h8.read_unread, h9.read_unread, View.ld_unit_zero (S := S128x8192) hz2, View.ld_unit_zero (S := S128x1) hz2]

theorem sC2 (hc0 : ¬cond0_0 i) (hc1 : cond0_1 i) :
    sout0_C_2 c i a2 h2 a3 h3 a4 h4 a5 h5 a6 h6 a7 h7 a8 h8 a9 h9 hc0 hc1 x0 x1 xs0 xs1 xs2 = k0_pay1 (k0_pay12 x0 x1 xs2) := by
  unfold sout0_C_2
  rw [View.read_writes_eq_canon _ _ _ (scover0_C_2 c i a2 h2 a3 h3 a4 h4 a5 h5 a6 h6 a7 h7 a8 h8 a9 h9 hc0 hc1 x0 x1 xs0 xs1 xs2)]
  unfold kernelRun0_C
  dsimp only
  sl_unfold_words
  rw [View.canon_unit_zero hz2]
  simp only [View.readCov_unit_zero (S := S128x1) _ hz2, View.readAt_eq_ld, h2.read_unread, h3.read_unread, h7.read_unread, h8.read_unread, h9.read_unread, View.ld_unit_zero (S := S128x8192) hz2, View.ld_unit_zero (S := S128x1) hz2]

theorem oC2 (hc0 : ¬cond0_0 i) (hc1 : cond0_1 i) :
    out0_C_2 c i a2 h2 a3 h3 a4 h4 a5 h5 a6 h6 a7 h7 a8 h8 a9 h9 hc0 hc1 x0 x1 xs0 xs1 xs2 = k0_pay2 (k0_pay10 x0 xs0) := by
  unfold out0_C_2
  rw [View.read_writes_eq_canon _ _ _ (cover0_C_2 c i a2 h2 a3 h3 a4 h4 a5 h5 a6 h6 a7 h7 a8 h8 a9 h9 hc0 hc1 x0 x1 xs0 xs1 xs2)]
  unfold kernelRun0_C
  dsimp only
  sl_unfold_words
  rw [View.canon_unit_zero hz3]
  simp only [View.readCov_unit_zero (S := S128x1) _ hz2, View.readAt_eq_ld, h2.read_unread, h3.read_unread, h7.read_unread, h8.read_unread, h9.read_unread, View.ld_unit_zero (S := S128x8192) hz2, View.ld_unit_zero (S := S128x1) hz2]

theorem oC3 (hc0 : ¬cond0_0 i) (hc1 : cond0_1 i) :
    out0_C_3 c i a2 h2 a3 h3 a4 h4 a5 h5 a6 h6 a7 h7 a8 h8 a9 h9 hc0 hc1 x0 x1 xs0 xs1 xs2 = k0_pay3 (k0_pay11 x1 xs1) := by
  unfold out0_C_3
  rw [View.read_writes_eq_canon _ _ _ (cover0_C_3 c i a2 h2 a3 h3 a4 h4 a5 h5 a6 h6 a7 h7 a8 h8 a9 h9 hc0 hc1 x0 x1 xs0 xs1 xs2)]
  unfold kernelRun0_C
  dsimp only
  sl_unfold_words
  rw [View.canon_unit_zero hz3]
  simp only [View.readCov_unit_zero (S := S128x1) _ hz2, View.readAt_eq_ld, h2.read_unread, h3.read_unread, h7.read_unread, h8.read_unread, h9.read_unread, View.ld_unit_zero (S := S128x8192) hz2, View.ld_unit_zero (S := S128x1) hz2]

theorem oC4 (hc0 : ¬cond0_0 i) (hc1 : cond0_1 i) :
    out0_C_4 c i a2 h2 a3 h3 a4 h4 a5 h5 a6 h6 a7 h7 a8 h8 a9 h9 hc0 hc1 x0 x1 xs0 xs1 xs2 = k0_pay4 (k0_pay1 (k0_pay12 x0 x1 xs2)) := by
  unfold out0_C_4
  rw [View.read_writes_eq_canon _ _ _ (cover0_C_4 c i a2 h2 a3 h3 a4 h4 a5 h5 a6 h6 a7 h7 a8 h8 a9 h9 hc0 hc1 x0 x1 xs0 xs1 xs2)]
  unfold kernelRun0_C
  dsimp only
  sl_unfold_words
  rw [View.canon_unit_zero hz3]
  simp only [View.readCov_unit_zero (S := S128x1) _ hz2, View.readAt_eq_ld, h2.read_unread, h3.read_unread, h7.read_unread, h8.read_unread, h9.read_unread, View.ld_unit_zero (S := S128x8192) hz2, View.ld_unit_zero (S := S128x1) hz2]

end Cert.KernelIdeal.Pieces

end
-- ==== Proof.LibSums.lean ====
import Idealize.ShloMosaic.Lib.ValueIdx

/-! # A sum taken tile by tile

A sum over `a · b` consecutive positions is the sum over `a` tiles of the sums over each tile's `b` positions; and a sum
whose terms vanish past position `n` is the sum of its first `n` terms. Stated for any commutative additive monoid. -/

namespace Cert.Sums

open scoped BigOperators

variable {M : Type} [AddCommMonoid M]

/-- Tile by tile: the sums over the tiles `k·b … k·b + b − 1`, `k < a`, add up to the sum over the first `a·b` positions. -/
theorem sum_tiles (a b : ℕ) (f : ℕ → M) :
    ∑ k ∈ Finset.range a, ∑ n : Fin b, f (k * b + n.val) = ∑ v ∈ Finset.range (a * b), f v := by
  induction a with
  | zero => simp
  | succ a ih =>
    rw [Finset.sum_range_succ, ih, Nat.succ_mul, Finset.sum_range_add]
    congr 1
    exact (Finset.sum_range (fun x => f (a * b + x))).symm

/-- Terms that vanish from position `n` on do not count. -/
theorem sum_range_of_tail_zero (n e : ℕ) (f : ℕ → M) (h : ∀ x, f (n + x) = 0) :
    ∑ v ∈ Finset.range (n + e), f v = ∑ v : Fin n, f v.val := by
  rw [Finset.sum_range_add, Finset.sum_range, Finset.sum_eq_zero (fun x _ => h x), add_zero]

end Cert.Sums
-- ==== Proof.Spec.lean ====
/-
  The counts behind an F-beta score, as mathematics.

  Two long arrays `t` and `l` are thresholded to bits ("this entry is not zero"); write a = [t ≠ 0], b = [l ≠ 0] for the
  bits read as the real numbers 0 and 1. One way to count is entry by entry over the conjunctions:
    true positives  = ∑ [l ≠ 0 ∧ t ≠ 0],   false positives = ∑ [¬ l ≠ 0 ∧ t ≠ 0],   false negatives = ∑ [l ≠ 0 ∧ ¬ t ≠ 0].
  The other way sums a, b and the products a·b and subtracts:
    true positives  = ∑ a·b,   false positives = ∑ a − ∑ a·b,   false negatives = ∑ b − ∑ a·b.
  Bit by bit [q ∧ p] = p·q and [¬q ∧ p] = p − p·q, and every sum here is a finite sum of real numbers (each term is 0 or
  1, whatever extended real the entry was), so the two ways agree as extended reals.

  The second half is about the order of summation: the array of 2·32·128·8192 entries is cut into 64 row blocks of
  128 rows of 8192 entries; block `32·c + j` goes to half `c`, step `j`; a half adds, row by row, the row sums of its 32
  blocks; at the end everything is added up. That is the sum over all entries (tile by tile, and one exchange of the
  two middle sums).
-/
import Idealize.ShloMosaic.PureOps.Ideal.Laws
import Idealize.ShloMosaic.Lib.ValueIdx
import proofs.«178757_j26594437496976_2_alg».proof.Proof.LibSums

noncomputable section

namespace Cert.Fbeta

open Idealize.ShloMosaic
open scoped BigOperators

/-! ## Bits as real numbers -/

/-- The bit "x is not zero" of an extended real. -/
def nz (x : EReal) : BitVec 1 := Ideal.cmp .une x (Ideal.ofBits .f32 0x00000000#32)

/-- The ordered and the unordered "not equal" are one comparison on the extended reals (there is no NaN to tell them apart). -/
theorem cmp_one_eq_nz (x : EReal) : Ideal.cmp .one x (Ideal.ofBits .f32 0x00000000#32) = nz x := rfl

/-- A bit read as the real number 0 or 1. -/
def bitR (b : BitVec 1) : ℝ := (b.toNat : ℝ)

theorem bit_cases (b : BitVec 1) : b = 0#1 ∨ b = 1#1 := by
  by_cases h : b = 1#1
  · exact Or.inr h
  · exact Or.inl (ValueIdx.eq_zero_of_ne_one h)

/-- Widening a bit to 32 bits and reading it as a signed integer gives the bit. -/
theorem toInt_setWidth (b : BitVec 1) : (((b.setWidth 32).toInt : ℝ) : EReal) = ((bitR b : ℝ) : EReal) := by
  have h : (b.setWidth 32).toInt = (b.toNat : ℤ) := by rcases bit_cases b with rfl | rfl <;> decide
  rw [h]; simp [bitR]

/-- The conjunction of two bits is their product. -/
theorem bitR_and (q p : BitVec 1) : bitR (IntOp.andi q p) = bitR p * bitR q := by
  rcases bit_cases p with rfl | rfl <;> rcases bit_cases q with rfl | rfl <;> simp [bitR, IntOp.andi]

/-- "not q, and p" is p minus the product. -/
theorem bitR_notand (q p : BitVec 1) : bitR (IntOp.andi (~~~q) p) = bitR p - bitR p * bitR q := by
  rcases bit_cases p with rfl | rfl <;> rcases bit_cases q with rfl | rfl <;> simp [bitR, IntOp.andi]

/-- "q, and not p" is q minus the product. -/
theorem bitR_andnot (q p : BitVec 1) : bitR (IntOp.andi q (~~~p)) = bitR q - bitR p * bitR q := by
  rcases bit_cases p with rfl | rfl <;> rcases bit_cases q with rfl | rfl <;> simp [bitR, IntOp.andi]

/-! ## Finite sums of real numbers inside the extended reals -/

/-- A finite sum of real numbers, each read as an extended real, is the real sum read as an extended real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The three counts, both ways -/

section counts

variable (T L : ℕ → EReal) (N : ℕ)

/-- a = [t ≠ 0] at flat position v, as a real number. -/
def a (v : ℕ) : ℝ := bitR (nz (T v))
/-- b = [l ≠ 0] at flat position v, as a real number. -/
def b (v : ℕ) : ℝ := bitR (nz (L v))

/-- ∑ a, ∑ b and ∑ a·b over the first N positions, as extended reals. -/
def sumA : EReal := ∑ v ∈ Finset.range N, ((a T v : ℝ) : EReal)
def sumB : EReal := ∑ v ∈ Finset.range N, ((b L v : ℝ) : EReal)
def sumAB : EReal := ∑ v ∈ Finset.range N, (((a T v : ℝ) : EReal) * ((b L v : ℝ) : EReal))

/-- The count of "l and t" entry by entry is ∑ a·b. -/
theorem count_tp : ∑ v ∈ Finset.range N, ((bitR (IntOp.andi (nz (L v)) (nz (T v))) : ℝ) : EReal) = sumAB T L N := by
  unfold sumAB a b
  refine Finset.sum_congr rfl fun v _ => ?_
  rw [bitR_and, EReal.coe_mul]

/-- The count of "not l, and t" entry by entry is ∑ a − ∑ a·b. -/
theorem count_fp : ∑ v ∈ Finset.range N, ((bitR (IntOp.andi (~~~(nz (L v))) (nz (T v))) : ℝ) : EReal)
    = sumA T N - sumAB T L N := by
  unfold sumA sumAB a b
  simp only [← EReal.coe_mul]
  rw [coe_sum, coe_sum, coe_sum, ← EReal.coe_sub, ← Finset.sum_sub_distrib]
  refine congrArg _ (Finset.sum_congr rfl fun v _ => ?_)
  rw [bitR_notand]

/-- The count of "l, and not t" entry by entry is ∑ b − ∑ a·b. -/
theorem count_fn : ∑ v ∈ Finset.range N, ((bitR (IntOp.andi (nz (L v)) (~~~(nz (T v)))) : ℝ) : EReal)
    = sumB L N - sumAB T L N := by
  unfold sumB sumAB a b
  simp only [← EReal.coe_mul]
  rw [coe_sum, coe_sum, coe_sum, ← EReal.coe_sub, ← Finset.sum_sub_distrib]
  refine congrArg _ (Finset.sum_congr rfl fun v _ => ?_)
  rw [bitR_andnot]

end counts

/-! ## Flat positions, and the score -/

/-- Flat position `v` of a [1, 2^26] array (positions past the end wrap; none is ever asked for). -/
def flat {α : Type} (x : (⟨2, ![1, 67108864]⟩ : Shape).Idx → α) (v : ℕ) : α :=
  x (ValueIdx.ix2 (0 : Fin 1) (⟨v % 67108864, Nat.mod_lt _ (by decide)⟩ : Fin 67108864))

/-- The shape of a single number. -/
abbrev Sc : Shape := ⟨0, ![]⟩

/-- The F-beta score with β² = 25 from the three counts (each already increased by the small constant): with precision
    p = tp / (tp + fp) and recall q = tp / (tp + fn) it is 26·(p·q) / (25·p + q), spelt operation by operation on rank-0
    arrays as both programs spell it. -/
def fbeta (tp fp fn : FVec Ideal Sc .f32) : FVec Ideal Sc .f32 :=
  Host.divf (F := Ideal)
    (mulf (constant (F := Ideal) Sc .f32 0x41D00000#32)
      (mulf (Host.divf (F := Ideal) tp (addf tp fp)) (Host.divf (F := Ideal) tp (addf tp fn))))
    (addf (mulf (constant (F := Ideal) Sc .f32 0x41C80000#32) (Host.divf (F := Ideal) tp (addf tp fp)))
      (Host.divf (F := Ideal) tp (addf tp fn)))

/-- The small constant added to each count. -/
def epsV : FVec Ideal Sc .f32 := constant (F := Ideal) Sc .f32 0x3089705F#32

/-- The score of two arrays given by flat position: true positives ∑ a·b, false positives ∑ a − ∑ a·b, false negatives
    ∑ b − ∑ a·b over the 2^26 positions. -/
def score (T L : ℕ → EReal) : FVec Ideal Sc .f32 :=
  fbeta (addf (fun _ => sumAB T L 67108864) epsV) (addf (fun _ => sumA T 67108864 - sumAB T L 67108864) epsV)
    (addf (fun _ => sumB L 67108864 - sumAB T L 67108864) epsV)

/-! ## A running sum that restarts every 32 steps -/

/-- The accumulator after step `n`: cleared before every step whose number is a multiple of 32, then increased by that
    step's contribution `R n`. -/
def accum {M : Type} [AddCommMonoid M] (R : ℕ → M) : ℕ → M
  | 0 => 0 + R 0
  | n + 1 => if (n + 1) % 32 = 0 then 0 + R (n + 1) else accum R n + R (n + 1)

/-- After step `n` it holds the contributions of the steps since the last restart. -/
theorem accum_eq {M : Type} [AddCommMonoid M] (R : ℕ → M) :
    ∀ n : ℕ, accum R n = ∑ j ∈ Finset.range (n % 32 + 1), R (n - n % 32 + j)
  | 0 => by simp [accum]
  | n + 1 => by
    by_cases h0 : (n + 1) % 32 = 0
    · rw [accum, if_pos h0, h0]; simp
    · rw [accum, if_neg h0, accum_eq R n]
      have e1 : (n + 1) % 32 = n % 32 + 1 := by omega
      have e2 : n + 1 - (n + 1) % 32 = n - n % 32 := by omega
      rw [e2, e1, Finset.sum_range_succ (n := n % 32 + 1)]
      congr 2
      omega

/-- At the last step of period `c` it holds the whole period's 32 contributions. -/
theorem accum_last {M : Type} [AddCommMonoid M] (R : ℕ → M) (c : ℕ) :
    accum R (c * 32 + 31) = ∑ j : Fin 32, R (c * 32 + j.val) := by
  rw [accum_eq, show (c * 32 + 31) % 32 + 1 = 32 by omega, show c * 32 + 31 - (c * 32 + 31) % 32 = c * 32 by omega,
    Finset.sum_range]

/-! ## The order of summation -/

/-- Half `c`, row `r`: the 32 blocks `32·c + j` of the half, each contributing the sum of its row `r` — block `k`'s row `r`
    is row `128·k + r` of the whole, entries `(128·k + r)·8192 + col`. Added over the halves and the rows this is the sum over
    all 2·32·128·8192 positions. -/
theorem sum_by_blocks {M : Type} [AddCommMonoid M] (g : ℕ → M) :
    ∑ c : Fin 2, ∑ r : Fin 128, ∑ j : Fin 32, ∑ col : Fin 8192, g (((c.val * 32 + j.val) * 128 + r.val) * 8192 + col.val)
      = ∑ v ∈ Finset.range 67108864, g v := by
  have h1 : ∑ row ∈ Finset.range 8192, ∑ col : Fin 8192, g (row * 8192 + col.val) = ∑ v ∈ Finset.range 67108864, g v :=
    Cert.Sums.sum_tiles (M := M) 8192 8192 g
  have h2 : ∑ k ∈ Finset.range 64, ∑ r : Fin 128, ∑ col : Fin 8192, g ((k * 128 + r.val) * 8192 + col.val)
      = ∑ row ∈ Finset.range 8192, ∑ col : Fin 8192, g (row * 8192 + col.val) :=
    Cert.Sums.sum_tiles (M := M) 64 128 (fun row => ∑ col : Fin 8192, g (row * 8192 + col.val))
  have h3 : ∑ c ∈ Finset.range 2, ∑ j : Fin 32, ∑ r : Fin 128, ∑ col : Fin 8192, g (((c * 32 + j.val) * 128 + r.val) * 8192 + col.val)
      = ∑ k ∈ Finset.range 64, ∑ r : Fin 128, ∑ col : Fin 8192, g ((k * 128 + r.val) * 8192 + col.val) :=
    Cert.Sums.sum_tiles (M := M) 2 32 (fun k => ∑ r : Fin 128, ∑ col : Fin 8192, g ((k * 128 + r.val) * 8192 + col.val))
  rw [← h1, ← h2, ← h3, Finset.sum_range]
  exact Finset.sum_congr rfl fun c _ => Finset.sum_comm

end Cert.Fbeta

end
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.Payload.lean ====
/-
  The kernel body's arithmetic, read at one entry, over the extended reals.

  A block is 128 rows of 8192 entries. The body thresholds each entry x to the indicator [x ≠ 0] (a comparison bit,
  widened and converted, so 0 or 1), multiplies the two blocks' indicators entry by entry, takes the three row sums and
  adds each to a one-column accumulator. Read at row r this is: accumulator + ∑ over the row of the indicators (or of
  their products). The remaining terms only re-view a column as itself or as a [1, 128, 1] slab.
-/
import proofs.«178757_j26594437496976_2_alg».proof.Proof.Gen.KernelIdeal.Skeleton
import proofs.«178757_j26594437496976_2_alg».proof.Proof.Spec
import proofs.«178757_j26594437496976_2_alg».proof.Proof.LibKeepdims
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Cert.Fbeta Idealize.ShloMosaic Idealize.ShloMosaic.ValueIdx
open scoped BigOperators

/-- The indicator [x ≠ 0] as an extended real. -/
def ind (x : EReal) : EReal := ((bitR (nz x) : ℝ) : EReal)

/-- The thresholded first block at an entry. -/
theorem pay8_apply (x : Vec Ideal S128x8192 .f32) (j : S128x8192.Idx) : k0_pay8 (F := Ideal) x j = ind (x j) := by
  unfold k0_pay8
  rw [shapeCast_self]
  exact toInt_setWidth (nz (x j))

/-- The thresholded second block at an entry. -/
theorem pay9_apply (x : Vec Ideal S128x8192 .f32) (j : S128x8192.Idx) : k0_pay9 (F := Ideal) x j = ind (x j) := by
  unfold k0_pay9
  rw [shapeCast_self]
  exact toInt_setWidth (nz (x j))

/-- A row sum kept as a column: the lane reduction of a block, viewed as [128, 1], at row r is the sum of row r. -/
theorem rowsum_apply (v : FVec Ideal S128x8192 .f32) (h : S128x8192.Reduces [1] S128) (hφ : FKind.Formats .f32)
    (hacc : (0x00000000#32 : BitVec 32) = FKind.add.neutral .f32 hφ) (hc : S128.ShapeCasts S128x1) (r : Fin 128) (u : Fin 1) :
    shapeCast S128x1 (multiReduction .add [1] S128 v 0x00000000#32 h hφ hacc) hc (ix2 r u) = ∑ col : Fin 8192, v (ix2 r col) := by
  refine (shapeCast_a_a1_apply _ hc r u).trans ?_
  refine (Ideal.multiReduction_add_single v 0x00000000#32 h hφ hacc (ix1 r)).trans ?_
  refine Finset.sum_congr rfl fun col _ => congrArg v ?_
  funext a
  match a with
  | ⟨0, _⟩ => rfl
  | ⟨1, _⟩ => rfl

/-- The first accumulator's new contents at row r: the old ones plus the row's count of nonzero entries. -/
theorem pay10_apply (x : Vec Ideal S128x8192 .f32) (xs : Vec Ideal S128x1 .f32) (r : Fin 128) (u : Fin 1) :
    k0_pay10 (F := Ideal) x xs (ix2 r u) = xs (ix2 r u) + ∑ col : Fin 8192, ind (x (ix2 r col)) := by
  unfold k0_pay10
  rw [shapeCast_self, addf_apply]
  refine congrArg (fun z => xs (ix2 r u) + z) ?_
  refine (rowsum_apply (k0_pay8 x) _ _ _ _ r u).trans ?_
  exact Finset.sum_congr rfl fun col _ => pay8_apply x _

/-- The second accumulator's, likewise. -/
theorem pay11_apply (x : Vec Ideal S128x8192 .f32) (xs : Vec Ideal S128x1 .f32) (r : Fin 128) (u : Fin 1) :
    k0_pay11 (F := Ideal) x xs (ix2 r u) = xs (ix2 r u) + ∑ col : Fin 8192, ind (x (ix2 r col)) := by
  unfold k0_pay11
  rw [shapeCast_self, addf_apply]
  refine congrArg (fun z => xs (ix2 r u) + z) ?_
  refine (rowsum_apply (k0_pay9 x) _ _ _ _ r u).trans ?_
  exact Finset.sum_congr rfl fun col _ => pay9_apply x _

/-- The third accumulator's: the old contents plus the row's count of entries nonzero in both blocks. -/
theorem pay12_apply (x0 x1 : Vec Ideal S128x8192 .f32) (xs : Vec Ideal S128x1 .f32) (r : Fin 128) (u : Fin 1) :
    k0_pay12 (F := Ideal) x0 x1 xs (ix2 r u)
      = xs (ix2 r u) + ∑ col : Fin 8192, ind (x0 (ix2 r col)) * ind (x1 (ix2 r col)) := by
  unfold k0_pay12
  rw [addf_apply]
  refine congrArg (fun z => xs (ix2 r u) + z) ?_
  refine (rowsum_apply (mulf (k0_pay8 x0) (k0_pay9 x1)) _ _ _ _ r u).trans ?_
  exact Finset.sum_congr rfl fun col _ => by rw [mulf_apply, pay8_apply, pay9_apply]

variable {F : FTy → Type} [FloatOps F]

/-- Re-viewing a column as a column changes nothing. -/
theorem pay1_eq (v : FVec F S128x1 .f32) : k0_pay1 v = v := by
  unfold k0_pay1
  exact shapeCast_self _ _

/-- A column viewed as a [1, 128, 1] slab has the column's entries. -/
theorem pay2_apply (v : Vec F S128x1 .f32) (u : Fin 1) (r : Fin 128) (w : Fin 1) : k0_pay2 v (ix3 u r w) = v (ix2 r w) := by
  unfold k0_pay2
  exact shapeCast_ab_1ab_apply v _ u r w
theorem pay3_apply (v : Vec F S128x1 .f32) (u : Fin 1) (r : Fin 128) (w : Fin 1) : k0_pay3 v (ix3 u r w) = v (ix2 r w) := by
  unfold k0_pay3
  exact shapeCast_ab_1ab_apply v _ u r w
theorem pay4_apply (v : Vec F S128x1 .f32) (u : Fin 1) (r : Fin 128) (w : Fin 1) : k0_pay4 v (ix3 u r w) = v (ix2 r w) := by
  unfold k0_pay4
  exact shapeCast_ab_1ab_apply v _ u r w

/-- The cleared accumulators hold zero. -/
theorem pay5_apply (j : S128x1.Idx) : k0_pay5 (F := Ideal) j = 0 := by
  unfold k0_pay5
  rw [shapeCast_self]
  exact Ideal.ofBits_zero_f32
theorem pay6_apply (j : S128x1.Idx) : k0_pay6 (F := Ideal) j = 0 := by
  unfold k0_pay6
  rw [shapeCast_self]
  exact Ideal.ofBits_zero_f32
theorem pay7_apply (j : S128x1.Idx) : k0_pay7 (F := Ideal) j = 0 := by
  unfold k0_pay7
  rw [shapeCast_self]
  exact Ideal.ofBits_zero_f32

end Cert.KernelIdeal.Payload

end
-- ==== Proof.Blocks.lean ====
import proofs.«178757_j26594437496976_2_alg».proof.Proof.Gen.KernelIdeal.Frame
import Idealize.ShloMosaic.Lib.Pipeline.Value
import Idealize.ShloMosaic.Lib.Tactic
import proofs.«178757_j26594437496976_2_alg».proof.Proof.Spec
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

/-! Where a block's entry sits in the argument arrays.

The two arguments are one row of 2^26 entries each. Before the region they are re-viewed as 8192 × 8192: entry
(row, col) is flat position row·8192 + col. The region's grid point t (of 64) fetches the block of rows
128·t … 128·t + 127 of each, so entry (r, col) of the block at point t is flat position (128·t + r)·8192 + col. -/

namespace Cert.KernelIdeal.Blocks

open Cert.KernelIdeal Cert.KernelIdeal.Gen Cert.Fbeta Idealize.ShloMosaic.ValueIdx

variable {F : FTy → Type} [FloatOps F]
variable (m : (ℓ : Loc nD τ sig) → Buf (Elt F) ℓ)

/-- A [1, 2^26] array re-viewed as 8192 × 8192: entry (row, col) is flat position row·8192 + col. -/
theorem reshape_apply (x : S1x67108864.Idx → F .f32) (h : S1x67108864.ShapeCasts S8192x8192) (row col : Fin 8192) :
    shapeCast S8192x8192 x h (ix2 row col) = flat x (row.val * 8192 + col.val) := by
  unfold flat
  refine shapeCast_apply x h _ _ ?_
  rw [Shape.rowMajor_val_two, Shape.rowMajor_val_two]
  have h1 := row.isLt
  have h2 := col.isLt
  show 0 * 67108864 + (row.val * 8192 + col.val) % 67108864 = row.val * 8192 + col.val
  omega

/-- The first argument as the region finds it re-viewed: entry (row, col) is flat position row·8192 + col. -/
theorem V_v0_apply (c : Dev nD) (row col : Fin 8192) :
    V m c main_v0 (ix2 row col) = flat (m ((c : Thread nD τ).loc main_arg0)) (row.val * 8192 + col.val) := by
  have e : (V m c main_v0 : (⟨S8192x8192, .f32⟩ : BufTy).Contents (Elt F))
      = shapeCast S8192x8192 (m ((c : Thread nD τ).loc main_arg0)) Facts₀.shapeCasts_S1x67108864_S8192x8192 := by
    show StableHlo.after hostOps0 (fun b => m (c, b)) (Proc.devRef .tc main_v0) = _
    after_results
    rfl
  rw [e]
  exact reshape_apply _ _ row col

/-- The second argument likewise. -/
theorem V_v1_apply (c : Dev nD) (row col : Fin 8192) :
    V m c main_v1 (ix2 row col) = flat (m ((c : Thread nD τ).loc main_arg1)) (row.val * 8192 + col.val) := by
  have e : (V m c main_v1 : (⟨S8192x8192, .f32⟩ : BufTy).Contents (Elt F))
      = shapeCast S8192x8192 (m ((c : Thread nD τ).loc main_arg1)) Facts₀.shapeCasts_S1x67108864_S8192x8192 := by
    show StableHlo.after hostOps0 (fun b => m (c, b)) (Proc.devRef .tc main_v1) = _
    after_results
    rfl
  rw [e]
  exact reshape_apply _ _ row col

/-- Point `t` fetches row block `t` of either input, whole rows. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)

/-- The first input's block at point `t`, typed as a 128 × 8192 block. -/
abbrev blk0 (c : Dev nD) (t : Fin cfg0.N) : Vec F S128x8192 .f32 := iblk m c 0 t
/-- The second input's. -/
abbrev blk1 (c : Dev nD) (t : Fin cfg0.N) : Vec F S128x8192 .f32 := iblk m c 1 t

/-- Entry (r, col) of the first input's block at point `t` is flat position (128·t + r)·8192 + col of the first argument. -/
theorem blk0_apply (c : Dev nD) (t : Fin cfg0.N) (r : Fin 128) (col : Fin 8192) :
    blk0 m c t (ix2 r col) = flat (m ((c : Thread nD τ).loc main_arg0)) ((t.val * 128 + r.val) * 8192 + col.val) := by
  have hN : t.val < 64 := lt_of_lt_of_eq t.isLt (show cfg0.N = 64 from N_0)
  have hrow : t.val * 128 + r.val < 8192 := by have := r.isLt; omega
  rw [← V_v0_apply m c ⟨t.val * 128 + r.val, hrow⟩ col]
  unfold blk0 iblk
  rw [View.read_apply]
  show V m c main_v0 _ = V m c main_v0 _
  refine congrArg (V m c main_v0) (funext fun a => Fin.ext ?_)
  match a with
  | ⟨0, _⟩ =>
    show win0_0.index t 0 * 128 + 1 * r.val = t.val * 128 + r.val
    rw [(idx0 t).1]; omega
  | ⟨1, _⟩ =>
    show win0_0.index t 1 * 8192 + 1 * col.val = col.val
    rw [(idx0 t).2]; omega

/-- The same for the second input. -/
theorem blk1_apply (c : Dev nD) (t : Fin cfg0.N) (r : Fin 128) (col : Fin 8192) :
    blk1 m c t (ix2 r col) = flat (m ((c : Thread nD τ).loc main_arg1)) ((t.val * 128 + r.val) * 8192 + col.val) := by
  have hN : t.val < 64 := lt_of_lt_of_eq t.isLt (show cfg0.N = 64 from N_0)
  have hrow : t.val * 128 + r.val < 8192 := by have := r.isLt; omega
  rw [← V_v1_apply m c ⟨t.val * 128 + r.val, hrow⟩ col]
  unfold blk1 iblk
  rw [View.read_apply]
  show V m c main_v1 _ = V m c main_v1 _
  refine congrArg (V m c main_v1) (funext fun a => Fin.ext ?_)
  match a with
  | ⟨0, _⟩ =>
    show win0_1.index t 0 * 128 + 1 * r.val = t.val * 128 + r.val
    rw [(idx1 t).1]; omega
  | ⟨1, _⟩ =>
    show win0_1.index t 1 * 8192 + 1 * col.val = col.val
    rw [(idx1 t).2]; omega

end Cert.KernelIdeal.Blocks

end
-- ==== Proof.Accum.lean ====
import proofs.«178757_j26594437496976_2_alg».proof.Proof.Gen.KernelIdeal.Frame
import Idealize.ShloMosaic.Lib.Pipeline.Value
import Idealize.ShloMosaic.Lib.Tactic
import proofs.«178757_j26594437496976_2_alg».proof.Proof.Pieces
import proofs.«178757_j26594437496976_2_alg».proof.Proof.Payload
import proofs.«178757_j26594437496976_2_alg».proof.Proof.Blocks
import proofs.«178757_j26594437496976_2_alg».proof.Proof.Spec

noncomputable section

open Idealize.ShloMosaic Idealize.ShloMosaic.TcCoe Idealize.SL.Sem
open Idealize.ShloMosaic.Pipeline (Dat)

/-! The three accumulators, point by point.

Grid point t = 32·c + j is step j of half c. The body clears the three one-column accumulators at step 0 of a half and
at every step adds, row by row, the row sums of the point's two blocks: the count of nonzero entries of the first
block's row, of the second's, and of the entries nonzero in both. So after point t row r of the first accumulator is
the sum, over the steps of this half so far, of the nonzero counts of row 128·t' + r of the first argument (viewed as
8192 rows); likewise the other two. At step 31 the three columns are copied to the outputs' blocks. -/

namespace Cert.KernelIdeal.Accum

open Cert.KernelIdeal Cert.KernelIdeal.Gen Cert.KernelIdeal.Pieces Cert.KernelIdeal.Payload Cert.KernelIdeal.Blocks Cert.Fbeta
open Idealize.ShloMosaic.ValueIdx
open scoped BigOperators

section vectors

variable {F : FTy → Type} [FloatOps F]
variable (m : (ℓ : Loc nD τ sig) → Buf (Elt F) ℓ)

/-- The three accumulator columns. -/
abbrev Trip (F : FTy → Type) := Vec F S128x1 .f32 × Vec F S128x1 .f32 × Vec F S128x1 .f32

/-- One point's update of the three columns from contents `s`. -/
def step (c : Dev nD) (t : Fin cfg0.N) (s : Trip F) : Trip F :=
  (k0_pay10 (blk0 m c t) s.1, k0_pay11 (blk1 m c t) s.2.1, k0_pay1 (k0_pay12 (blk0 m c t) (blk1 m c t) s.2.2))

/-- The cleared columns. -/
def cleared : Trip F := (k0_pay5, k0_pay6, k0_pay7)

/-- The columns after point `n`: cleared before each first step of a half, then updated. -/
def accV (c : Dev nD) : (n : ℕ) → n < cfg0.N → Trip F
  | 0, h => step m c ⟨0, h⟩ cleared
  | n + 1, h => step m c ⟨n + 1, h⟩ (if (n + 1) % 32 = 0 then cleared else accV c n (Nat.lt_of_succ_lt h))

/-- A first step of a half leaves the update of the cleared columns. -/
theorem scrA (c : Dev nD) (t : Fin cfg0.N) (h0 : t.val % 32 = 0) (h1 : ¬t.val % 32 = 31) :
    (outsAt0 m c t.val t.isLt).2.2.2 = step m c t cleared := by
  rw [outsAt0_A m c t h0 h1]
  unfold step cleared
  refine Prod.ext ?_ (Prod.ext ?_ ?_)
  · exact sA0 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := scM0_0) (h7 := Memref.isWhole_whole _) (a8 := scM0_1) (h8 := Memref.isWhole_whole _) (a9 := scM0_2) (h9 := Memref.isWhole_whole _) (x0 := blk0 m c t) (x1 := blk1 m c t) (hc0 := (hcond0_0 t).mpr h0) (hc1 := fun h => h1 ((hcond0_1 t).mp h))
  · exact sA1 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := scM0_0) (h7 := Memref.isWhole_whole _) (a8 := scM0_1) (h8 := Memref.isWhole_whole _) (a9 := scM0_2) (h9 := Memref.isWhole_whole _) (x0 := blk0 m c t) (x1 := blk1 m c t) (hc0 := (hcond0_0 t).mpr h0) (hc1 := fun h => h1 ((hcond0_1 t).mp h))
  · exact sA2 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := scM0_0) (h7 := Memref.isWhole_whole _) (a8 := scM0_1) (h8 := Memref.isWhole_whole _) (a9 := scM0_2) (h9 := Memref.isWhole_whole _) (x0 := blk0 m c t) (x1 := blk1 m c t) (hc0 := (hcond0_0 t).mpr h0) (hc1 := fun h => h1 ((hcond0_1 t).mp h))

/-- A middle step leaves the update of what the point before left. -/
theorem scrB (c : Dev nD) (t : Fin cfg0.N) (h0 : ¬t.val % 32 = 0) (h1 : ¬t.val % 32 = 31) :
    (outsAt0 m c t.val t.isLt).2.2.2
      = step m c t (outsAt0 m c (t.val - 1) (Nat.lt_of_le_of_lt (Nat.sub_le _ _) t.isLt)).2.2.2 := by
  rw [outsAt0_B m c t h0 h1]
  unfold step
  refine Prod.ext ?_ (Prod.ext ?_ ?_)
  · exact sB0 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := scM0_0) (h7 := Memref.isWhole_whole _) (a8 := scM0_1) (h8 := Memref.isWhole_whole _) (a9 := scM0_2) (h9 := Memref.isWhole_whole _) (x0 := blk0 m c t) (x1 := blk1 m c t) (xs0 := (outsAt0 m c (t.val - 1) (Nat.lt_of_le_of_lt (Nat.sub_le _ _) t.isLt)).2.2.2.1) (xs1 := (outsAt0 m c (t.val - 1) (Nat.lt_of_le_of_lt (Nat.sub_le _ _) t.isLt)).2.2.2.2.1) (xs2 := (outsAt0 m c (t.val - 1) (Nat.lt_of_le_of_lt (Nat.sub_le _ _) t.isLt)).2.2.2.2.2) (hc0 := fun h => h0 ((hcond0_0 t).mp h)) (hc1 := fun h => h1 ((hcond0_1 t).mp h))
  · exact sB1 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := scM0_0) (h7 := Memref.isWhole_whole _) (a8 := scM0_1) (h8 := Memref.isWhole_whole _) (a9 := scM0_2) (h9 := Memref.isWhole_whole _) (x0 := blk0 m c t) (x1 := blk1 m c t) (xs0 := (outsAt0 m c (t.val - 1) (Nat.lt_of_le_of_lt (Nat.sub_le _ _) t.isLt)).2.2.2.1) (xs1 := (outsAt0 m c (t.val - 1) (Nat.lt_of_le_of_lt (Nat.sub_le _ _) t.isLt)).2.2.2.2.1) (xs2 := (outsAt0 m c (t.val - 1) (Nat.lt_of_le_of_lt (Nat.sub_le _ _) t.isLt)).2.2.2.2.2) (hc0 := fun h => h0 ((hcond0_0 t).mp h)) (hc1 := fun h => h1 ((hcond0_1 t).mp h))
  · exact sB2 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := scM0_0) (h7 := Memref.isWhole_whole _) (a8 := scM0_1) (h8 := Memref.isWhole_whole _) (a9 := scM0_2) (h9 := Memref.isWhole_whole _) (x0 := blk0 m c t) (x1 := blk1 m c t) (xs0 := (outsAt0 m c (t.val - 1) (Nat.lt_of_le_of_lt (Nat.sub_le _ _) t.isLt)).2.2.2.1) (xs1 := (outsAt0 m c (t.val - 1) (Nat.lt_of_le_of_lt (Nat.sub_le _ _) t.isLt)).2.2.2.2.1) (xs2 := (outsAt0 m c (t.val - 1) (Nat.lt_of_le_of_lt (Nat.sub_le _ _) t.isLt)).2.2.2.2.2) (hc0 := fun h => h0 ((hcond0_0 t).mp h)) (hc1 := fun h => h1 ((hcond0_1 t).mp h))

/-- So does a last step. -/
theorem scrC (c : Dev nD) (t : Fin cfg0.N) (h0 : ¬t.val % 32 = 0) (h1 : t.val % 32 = 31) :
    (outsAt0 m c t.val t.isLt).2.2.2
      = step m c t (outsAt0 m c (t.val - 1) (Nat.lt_of_le_of_lt (Nat.sub_le _ _) t.isLt)).2.2.2 := by
  rw [outsAt0_C m c t h0 h1]
  unfold step
  refine Prod.ext ?_ (Prod.ext ?_ ?_)
  · exact sC0 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := scM0_0) (h7 := Memref.isWhole_whole _) (a8 := scM0_1) (h8 := Memref.isWhole_whole _) (a9 := scM0_2) (h9 := Memref.isWhole_whole _) (x0 := blk0 m c t) (x1 := blk1 m c t) (xs0 := (outsAt0 m c (t.val - 1) (Nat.lt_of_le_of_lt (Nat.sub_le _ _) t.isLt)).2.2.2.1) (xs1 := (outsAt0 m c (t.val - 1) (Nat.lt_of_le_of_lt (Nat.sub_le _ _) t.isLt)).2.2.2.2.1) (xs2 := (outsAt0 m c (t.val - 1) (Nat.lt_of_le_of_lt (Nat.sub_le _ _) t.isLt)).2.2.2.2.2) (hc0 := fun h => h0 ((hcond0_0 t).mp h)) (hc1 := (hcond0_1 t).mpr h1)
  · exact sC1 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := scM0_0) (h7 := Memref.isWhole_whole _) (a8 := scM0_1) (h8 := Memref.isWhole_whole _) (a9 := scM0_2) (h9 := Memref.isWhole_whole _) (x0 := blk0 m c t) (x1 := blk1 m c t) (xs0 := (outsAt0 m c (t.val - 1) (Nat.lt_of_le_of_lt (Nat.sub_le _ _) t.isLt)).2.2.2.1) (xs1 := (outsAt0 m c (t.val - 1) (Nat.lt_of_le_of_lt (Nat.sub_le _ _) t.isLt)).2.2.2.2.1) (xs2 := (outsAt0 m c (t.val - 1) (Nat.lt_of_le_of_lt (Nat.sub_le _ _) t.isLt)).2.2.2.2.2) (hc0 := fun h => h0 ((hcond0_0 t).mp h)) (hc1 := (hcond0_1 t).mpr h1)
  · exact sC2 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := scM0_0) (h7 := Memref.isWhole_whole _) (a8 := scM0_1) (h8 := Memref.isWhole_whole _) (a9 := scM0_2) (h9 := Memref.isWhole_whole _) (x0 := blk0 m c t) (x1 := blk1 m c t) (xs0 := (outsAt0 m c (t.val - 1) (Nat.lt_of_le_of_lt (Nat.sub_le _ _) t.isLt)).2.2.2.1) (xs1 := (outsAt0 m c (t.val - 1) (Nat.lt_of_le_of_lt (Nat.sub_le _ _) t.isLt)).2.2.2.2.1) (xs2 := (outsAt0 m c (t.val - 1) (Nat.lt_of_le_of_lt (Nat.sub_le _ _) t.isLt)).2.2.2.2.2) (hc0 := fun h => h0 ((hcond0_0 t).mp h)) (hc1 := (hcond0_1 t).mpr h1)

/-- What the frame run records for the scratch columns after point `n` is that recursion. -/
theorem scr_eq (c : Dev nD) : ∀ (n : ℕ) (h : n < cfg0.N), (outsAt0 m c n h).2.2.2 = accV m c n h
  | 0, h => scrA m c ⟨0, h⟩ rfl (by show ¬0 % 32 = 31; decide)
  | n + 1, h => by
    have hN : n + 1 < 64 := lt_of_lt_of_eq h (show cfg0.N = 64 from N_0)
    have ih := scr_eq c n (Nat.lt_of_succ_lt h)
    show _ = step m c ⟨n + 1, h⟩ (if (n + 1) % 32 = 0 then cleared else accV m c n (Nat.lt_of_succ_lt h))
    by_cases h0 : (n + 1) % 32 = 0
    · have h1 : ¬(n + 1) % 32 = 31 := by omega
      rw [if_pos h0]
      exact scrA m c ⟨n + 1, h⟩ h0 h1
    · rw [if_neg h0, ← ih]
      by_cases h1 : (n + 1) % 32 = 31
      · exact scrC m c ⟨n + 1, h⟩ h0 h1
      · exact scrB m c ⟨n + 1, h⟩ h0 h1

end vectors

section outputs

variable {F : FTy → Type} [FloatOps F]
variable (m : (ℓ : Loc nD τ sig) → Buf (Elt F) ℓ)

/-- At the last step of a half the three output blocks are the three scratch columns the step leaves, each viewed as
    a [1, 128, 1] slab. -/
theorem out_scr (c : Dev nD) (t : Fin cfg0.N) (h1 : t.val % 32 = 31) :
    (outsAt0 m c t.val t.isLt).1 = k0_pay2 (outsAt0 m c t.val t.isLt).2.2.2.1
    ∧ (outsAt0 m c t.val t.isLt).2.1 = k0_pay3 (outsAt0 m c t.val t.isLt).2.2.2.2.1
    ∧ (outsAt0 m c t.val t.isLt).2.2.1 = k0_pay4 (outsAt0 m c t.val t.isLt).2.2.2.2.2 := by
  have h0 : ¬t.val % 32 = 0 := by omega
  rw [outsAt0_C m c t h0 h1]
  dsimp only
  refine ⟨?_, ?_, ?_⟩
  · exact (oC2 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := scM0_0) (h7 := Memref.isWhole_whole _) (a8 := scM0_1) (h8 := Memref.isWhole_whole _) (a9 := scM0_2) (h9 := Memref.isWhole_whole _) (x0 := blk0 m c t) (x1 := blk1 m c t) (xs0 := (outsAt0 m c (t.val - 1) (Nat.lt_of_le_of_lt (Nat.sub_le _ _) t.isLt)).2.2.2.1) (xs1 := (outsAt0 m c (t.val - 1) (Nat.lt_of_le_of_lt (Nat.sub_le _ _) t.isLt)).2.2.2.2.1) (xs2 := (outsAt0 m c (t.val - 1) (Nat.lt_of_le_of_lt (Nat.sub_le _ _) t.isLt)).2.2.2.2.2) (hc0 := fun h => h0 ((hcond0_0 t).mp h)) (hc1 := (hcond0_1 t).mpr h1)).trans (congrArg k0_pay2 (sC0 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := scM0_0) (h7 := Memref.isWhole_whole _) (a8 := scM0_1) (h8 := Memref.isWhole_whole _) (a9 := scM0_2) (h9 := Memref.isWhole_whole _) (x0 := blk0 m c t) (x1 := blk1 m c t) (xs0 := (outsAt0 m c (t.val - 1) (Nat.lt_of_le_of_lt (Nat.sub_le _ _) t.isLt)).2.2.2.1) (xs1 := (outsAt0 m c (t.val - 1) (Nat.lt_of_le_of_lt (Nat.sub_le _ _) t.isLt)).2.2.2.2.1) (xs2 := (outsAt0 m c (t.val - 1) (Nat.lt_of_le_of_lt (Nat.sub_le _ _) t.isLt)).2.2.2.2.2) (hc0 := fun h => h0 ((hcond0_0 t).mp h)) (hc1 := (hcond0_1 t).mpr h1)).symm)
  · exact (oC3 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := scM0_0) (h7 := Memref.isWhole_whole _) (a8 := scM0_1) (h8 := Memref.isWhole_whole _) (a9 := scM0_2) (h9 := Memref.isWhole_whole _) (x0 := blk0 m c t) (x1 := blk1 m c t) (xs0 := (outsAt0 m c (t.val - 1) (Nat.lt_of_le_of_lt (Nat.sub_le _ _) t.isLt)).2.2.2.1) (xs1 := (outsAt0 m c (t.val - 1) (Nat.lt_of_le_of_lt (Nat.sub_le _ _) t.isLt)).2.2.2.2.1) (xs2 := (outsAt0 m c (t.val - 1) (Nat.lt_of_le_of_lt (Nat.sub_le _ _) t.isLt)).2.2.2.2.2) (hc0 := fun h => h0 ((hcond0_0 t).mp h)) (hc1 := (hcond0_1 t).mpr h1)).trans (congrArg k0_pay3 (sC1 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := scM0_0) (h7 := Memref.isWhole_whole _) (a8 := scM0_1) (h8 := Memref.isWhole_whole _) (a9 := scM0_2) (h9 := Memref.isWhole_whole _) (x0 := blk0 m c t) (x1 := blk1 m c t) (xs0 := (outsAt0 m c (t.val - 1) (Nat.lt_of_le_of_lt (Nat.sub_le _ _) t.isLt)).2.2.2.1) (xs1 := (outsAt0 m c (t.val - 1) (Nat.lt_of_le_of_lt (Nat.sub_le _ _) t.isLt)).2.2.2.2.1) (xs2 := (outsAt0 m c (t.val - 1) (Nat.lt_of_le_of_lt (Nat.sub_le _ _) t.isLt)).2.2.2.2.2) (hc0 := fun h => h0 ((hcond0_0 t).mp h)) (hc1 := (hcond0_1 t).mpr h1)).symm)
  · exact (oC4 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := scM0_0) (h7 := Memref.isWhole_whole _) (a8 := scM0_1) (h8 := Memref.isWhole_whole _) (a9 := scM0_2) (h9 := Memref.isWhole_whole _) (x0 := blk0 m c t) (x1 := blk1 m c t) (xs0 := (outsAt0 m c (t.val - 1) (Nat.lt_of_le_of_lt (Nat.sub_le _ _) t.isLt)).2.2.2.1) (xs1 := (outsAt0 m c (t.val - 1) (Nat.lt_of_le_of_lt (Nat.sub_le _ _) t.isLt)).2.2.2.2.1) (xs2 := (outsAt0 m c (t.val - 1) (Nat.lt_of_le_of_lt (Nat.sub_le _ _) t.isLt)).2.2.2.2.2) (hc0 := fun h => h0 ((hcond0_0 t).mp h)) (hc1 := (hcond0_1 t).mpr h1)).trans (congrArg k0_pay4 (sC2 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := scM0_0) (h7 := Memref.isWhole_whole _) (a8 := scM0_1) (h8 := Memref.isWhole_whole _) (a9 := scM0_2) (h9 := Memref.isWhole_whole _) (x0 := blk0 m c t) (x1 := blk1 m c t) (xs0 := (outsAt0 m c (t.val - 1) (Nat.lt_of_le_of_lt (Nat.sub_le _ _) t.isLt)).2.2.2.1) (xs1 := (outsAt0 m c (t.val - 1) (Nat.lt_of_le_of_lt (Nat.sub_le _ _) t.isLt)).2.2.2.2.1) (xs2 := (outsAt0 m c (t.val - 1) (Nat.lt_of_le_of_lt (Nat.sub_le _ _) t.isLt)).2.2.2.2.2) (hc0 := fun h => h0 ((hcond0_0 t).mp h)) (hc1 := (hcond0_1 t).mpr h1)).symm)

/-- The same with the columns named by the recursion. -/
theorem out_eq (c : Dev nD) (t : Fin cfg0.N) (h1 : t.val % 32 = 31) :
    (outsAt0 m c t.val t.isLt).1 = k0_pay2 (accV m c t.val t.isLt).1
    ∧ (outsAt0 m c t.val t.isLt).2.1 = k0_pay3 (accV m c t.val t.isLt).2.1
    ∧ (outsAt0 m c t.val t.isLt).2.2.1 = k0_pay4 (accV m c t.val t.isLt).2.2 := by
  obtain ⟨e1, e2, e3⟩ := out_scr m c t h1
  have e := scr_eq m c t.val t.isLt
  exact ⟨e1.trans (congrArg (fun s : Trip F => k0_pay2 s.1) e), e2.trans (congrArg (fun s : Trip F => k0_pay3 s.2.1) e),
    e3.trans (congrArg (fun s : Trip F => k0_pay4 s.2.2) e)⟩

end outputs

section ideal

variable (m : (ℓ : Loc nD τ sig) → Buf (Elt Ideal) ℓ)

/-- The two arguments, by flat position. -/
abbrev T (c : Dev nD) : ℕ → EReal := flat (m ((c : Thread nD τ).loc main_arg0))
abbrev L (c : Dev nD) : ℕ → EReal := flat (m ((c : Thread nD τ).loc main_arg1))

/-- Row `r` of row block `k`: the count of nonzero entries of the first argument there, of the second, of both. -/
def rowT (c : Dev nD) (r : Fin 128) (k : ℕ) : EReal := ∑ col : Fin 8192, ind (T m c ((k * 128 + r.val) * 8192 + col.val))
def rowL (c : Dev nD) (r : Fin 128) (k : ℕ) : EReal := ∑ col : Fin 8192, ind (L m c ((k * 128 + r.val) * 8192 + col.val))
def rowTL (c : Dev nD) (r : Fin 128) (k : ℕ) : EReal :=
  ∑ col : Fin 8192, ind (T m c ((k * 128 + r.val) * 8192 + col.val)) * ind (L m c ((k * 128 + r.val) * 8192 + col.val))

/-- One point's update read at row `r`: each column grows by its row count of the point's row block. -/
theorem step_apply (c : Dev nD) (t : Fin cfg0.N) (s : Trip Ideal) (r : Fin 128) (u : Fin 1) :
    (step m c t s).1 (ix2 r u) = s.1 (ix2 r u) + rowT m c r t.val
    ∧ (step m c t s).2.1 (ix2 r u) = s.2.1 (ix2 r u) + rowL m c r t.val
    ∧ (step m c t s).2.2 (ix2 r u) = s.2.2 (ix2 r u) + rowTL m c r t.val := by
  unfold step rowT rowL rowTL
  refine ⟨?_, ?_, ?_⟩
  · refine (pay10_apply (blk0 m c t) s.1 r u).trans (congrArg (fun z => s.1 (ix2 r u) + z) ?_)
    exact Finset.sum_congr rfl fun col _ => by rw [blk0_apply]
  · refine (pay11_apply (blk1 m c t) s.2.1 r u).trans (congrArg (fun z => s.2.1 (ix2 r u) + z) ?_)
    exact Finset.sum_congr rfl fun col _ => by rw [blk1_apply]
  · show k0_pay1 (k0_pay12 (blk0 m c t) (blk1 m c t) s.2.2) (ix2 r u) = _
    rw [pay1_eq]
    refine (pay12_apply (blk0 m c t) (blk1 m c t) s.2.2 r u).trans (congrArg (fun z => s.2.2 (ix2 r u) + z) ?_)
    exact Finset.sum_congr rfl fun col _ => by rw [blk0_apply, blk1_apply]

/-- The cleared columns are zero. -/
theorem cleared_apply (j : S128x1.Idx) :
    (cleared (F := Ideal)).1 j = 0 ∧ (cleared (F := Ideal)).2.1 j = 0 ∧ (cleared (F := Ideal)).2.2 j = 0 :=
  ⟨pay5_apply j, pay6_apply j, pay7_apply j⟩

/-- After point `n`, row `r` of each column is the restarting running sum of its row counts. -/
theorem acc_apply (c : Dev nD) (r : Fin 128) (u : Fin 1) : ∀ (n : ℕ) (h : n < cfg0.N),
    (accV m c n h).1 (ix2 r u) = accum (rowT m c r) n
    ∧ (accV m c n h).2.1 (ix2 r u) = accum (rowL m c r) n
    ∧ (accV m c n h).2.2 (ix2 r u) = accum (rowTL m c r) n
  | 0, h => by
    obtain ⟨e1, e2, e3⟩ := step_apply m c ⟨0, h⟩ cleared r u
    obtain ⟨z1, z2, z3⟩ := cleared_apply (ix2 r u)
    show (step m c ⟨0, h⟩ cleared).1 (ix2 r u) = 0 + rowT m c r 0 ∧ (step m c ⟨0, h⟩ cleared).2.1 (ix2 r u) = 0 + rowL m c r 0
      ∧ (step m c ⟨0, h⟩ cleared).2.2 (ix2 r u) = 0 + rowTL m c r 0
    rw [e1, e2, e3, z1, z2, z3]
    exact ⟨rfl, rfl, rfl⟩
  | n + 1, h => by
    obtain ⟨i1, i2, i3⟩ := acc_apply c r u n (Nat.lt_of_succ_lt h)
    obtain ⟨z1, z2, z3⟩ := cleared_apply (ix2 r u)
    show (step m c ⟨n + 1, h⟩ (if (n + 1) % 32 = 0 then cleared else accV m c n (Nat.lt_of_succ_lt h))).1 (ix2 r u)
        = (if (n + 1) % 32 = 0 then 0 + rowT m c r (n + 1) else accum (rowT m c r) n + rowT m c r (n + 1))
      ∧ (step m c ⟨n + 1, h⟩ (if (n + 1) % 32 = 0 then cleared else accV m c n (Nat.lt_of_succ_lt h))).2.1 (ix2 r u)
        = (if (n + 1) % 32 = 0 then 0 + rowL m c r (n + 1) else accum (rowL m c r) n + rowL m c r (n + 1))
      ∧ (step m c ⟨n + 1, h⟩ (if (n + 1) % 32 = 0 then cleared else accV m c n (Nat.lt_of_succ_lt h))).2.2 (ix2 r u)
        = (if (n + 1) % 32 = 0 then 0 + rowTL m c r (n + 1) else accum (rowTL m c r) n + rowTL m c r (n + 1))
    by_cases h0 : (n + 1) % 32 = 0
    · obtain ⟨e1, e2, e3⟩ := step_apply m c ⟨n + 1, h⟩ cleared r u
      rw [if_pos h0, if_pos h0, if_pos h0, if_pos h0, e1, e2, e3, z1, z2, z3]
      exact ⟨rfl, rfl, rfl⟩
    · obtain ⟨e1, e2, e3⟩ := step_apply m c ⟨n + 1, h⟩ (accV m c n (Nat.lt_of_succ_lt h)) r u
      rw [if_neg h0, if_neg h0, if_neg h0, if_neg h0, e1, e2, e3, i1, i2, i3]
      exact ⟨rfl, rfl, rfl⟩

end ideal

end Cert.KernelIdeal.Accum

end
-- ==== Proof.LibIdxSums.lean ====
/-
  Sums over a rank-1 and over a rank-3 index set, taken coordinate by coordinate: an index of a shape [n] is its one
  coordinate, an index of a shape [n0, n1, n2] is the triple of its coordinates, so a sum over all indices is the
  iterated sum over the coordinate ranges. (The rank-2 form is the library's `sum_idx2`.) Stated for any commutative
  additive monoid and any extents.
-/
import Idealize.ShloMosaic.Lib.ValueIdx

namespace Idealize.ShloMosaic.ValueIdx

open Idealize.ShloMosaic
open scoped BigOperators

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.ValueIdx
-- ==== Proof.Outputs.lean ====
import proofs.«178757_j26594437496976_2_alg».proof.Proof.Gen.KernelIdeal.Frame
import Idealize.ShloMosaic.Lib.Pipeline.Value
import Idealize.ShloMosaic.Lib.Tactic
import proofs.«178757_j26594437496976_2_alg».proof.Proof.Accum
import proofs.«178757_j26594437496976_2_alg».proof.Proof.LibIdxSums
import Idealize.ShloMosaic.Lib.StableHlo.Run

noncomputable section

open Idealize.ShloMosaic Idealize.ShloMosaic.TcCoe Idealize.SL.Sem
open Idealize.ShloMosaic.Pipeline (Dat)

/-! The three output arrays after the region.

Each output is a [2, 128, 1] array, one [1, 128, 1] block per half, written back once, after the half's last step. So
entry (half a, row r) of the first output is the first accumulator's row r after point 32·a + 31: the nonzero counts
of row r of the half's 32 row blocks added up; likewise the other two. -/

namespace Cert.KernelIdeal.Outputs

open Cert.KernelIdeal Cert.KernelIdeal.Gen Cert.KernelIdeal.Payload Cert.KernelIdeal.Blocks Cert.KernelIdeal.Accum Cert.Fbeta
open Idealize.ShloMosaic.ValueIdx
open scoped BigOperators

/-- A column per half, as a [2, 128, 1] array: at (half a, row r) the running sum of `R r` after point 32·a + 31. -/
def colArr (R : Fin 128 → ℕ → EReal) : S2x128x1.Idx → EReal :=
  fun i => accum (R ⟨(i 1).val, (i 1).isLt⟩) ((i 0).val * 32 + 31)

theorem colArr_ix3 (R : Fin 128 → ℕ → EReal) (a : Fin 2) (r : Fin 128) (z : Fin 1) :
    colArr R (ix3 a r z) = accum (R r) (a.val * 32 + 31) := rfl

theorem accum_congr (R : Fin 128 → ℕ → EReal) {r r' : Fin 128} {n n' : ℕ} (hr : r.val = r'.val) (hn : n = n') :
    accum (R r) n = accum (R r') n' := by
  obtain rfl : r = r' := Fin.ext hr
  subst hn
  rfl

/-- A column viewed as a [1, 128, 1] slab, read at any index of the slab: the column's entry of that row. -/
theorem slab (pay : Vec Ideal S128x1 .f32 → FVec Ideal S1x128x1 .f32)
    (hpay : ∀ (v : Vec Ideal S128x1 .f32) (u : Fin 1) (r : Fin 128) (w : Fin 1), pay v (ix3 u r w) = v (ix2 r w))
    (v : Vec Ideal S128x1 .f32) (y : S1x128x1.Idx) : pay v y = v (ix2 (⟨(y 1).val, (y 1).isLt⟩ : Fin 128) (0 : Fin 1)) := by
  have e : y = ix3 (0 : Fin 1) (⟨(y 1).val, (y 1).isLt⟩ : Fin 128) (0 : Fin 1) := by
    funext a
    match a with
    | ⟨0, _⟩ => exact Fin.ext (by have h : (y 0).val < 1 := (y 0).isLt; show (y 0).val = 0; omega)
    | ⟨1, _⟩ => rfl
    | ⟨2, _⟩ => exact Fin.ext (by have h : (y 2).val < 1 := (y 2).isLt; show (y 2).val = 0; omega)
  exact (congrArg (pay v) e).trans (hpay v 0 _ 0)

variable (m : (ℓ : Loc nD τ sig) → Buf (Elt Ideal) ℓ)

/-- Output 0's block index at a point: the point's half; whole in the other two axes. -/
theorem idxO2 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)
theorem xsO2 : ∀ t : Fin cfg0.N, win0_2.xsize (grid0.coords t) 0 = 1 ∧ win0_2.xsize (grid0.coords t) 1 = 128
    ∧ win0_2.xsize (grid0.coords t) 2 = 1 :=
  (by decide +kernel : ∀ t : Fin grid0.N, win0_2.xsize (grid0.coords t) 0 = 1 ∧ win0_2.xsize (grid0.coords t) 1 = 128
    ∧ win0_2.xsize (grid0.coords t) 2 = 1)

/-- What output 0's array ends holding: at (half, row) the half's 32 row counts of that row added up. -/
abbrev G2 (c : Dev nD) : Buf (Elt Ideal) ((c : Thread nD τ).loc main_v2_0) := colArr (rowT m c)

/-- The block written back at the last step of a half is that array's block. -/
theorem flushed2_eq (c : Dev nD) (t : Fin cfg0.N) (hf : (cfg0.win 2).flush t = true) :
    (dats m 0 c).flushed 2 t = ((cfg0.win 2).blk t).view.read (Elt Ideal) (G2 m c) := by
  have h31 : t.val % 32 = 31 := (flush0_2 t).mp hf
  show (cfg0.win 2).cut (grid0.coords t) ((dats m 0 c).after 2 t) = _
  rw [after0_2, (out_eq m c t h31).1]
  funext y
  rw [View.read_apply]
  refine (slab k0_pay2 pay2_apply (accV m c t.val t.isLt).1 ((cfg0.win 2).xinj (grid0.coords t) y)).trans ?_
  refine ((acc_apply m c _ 0 t.val t.isLt).1).trans ?_
  refine accum_congr (rowT m c) ?_ ?_
  · show (y 1).val = win0_2.index t 1 * 128 + 1 * (y 1).val
    rw [(idxO2 t).2.1]; omega
  · have h0 : (y 0).val < 1 := (y 0).isLt
    show t.val = (win0_2.index t 0 * 1 + 1 * (y 0).val) * 32 + 31
    rw [(idxO2 t).1]; omega

/-- The two write-backs (one per half) cover the array, so it ends holding that. -/
theorem final2 (c : Dev nD) : (dats m 0 c).arrAt 2 cfg0.N = G2 m c :=
  (dats m 0 c).arrAt_eq_of_cover 2 (G2 m c) (flushed2_eq m c) fun i => by
    have hN : cfg0.N = 64 := N_0
    have h0 : (i 0).val < 2 := (i 0).isLt
    have h1 : (i 1).val < 128 := (i 1).isLt
    have h2 : (i 2).val < 1 := (i 2).isLt
    have ht : (i 0).val * 32 + 31 < cfg0.N := by rw [hN]; omega
    refine ⟨⟨(i 0).val * 32 + 31, ht⟩, (flush0_2 _).mpr (by show ((i 0).val * 32 + 31) % 32 = 31; omega), ?_⟩
    show i ∈ ((View.whole main_v2_0).slice (win0_2.rect ⟨(i 0).val * 32 + 31, ht⟩)).set
    rw [View.set_slice_whole, Rect.mem_set_unit]
    intro a
    obtain ⟨e0, e1, e2⟩ := idxO2 ⟨(i 0).val * 32 + 31, ht⟩
    obtain ⟨s0, s1, s2⟩ := xsO2 ⟨(i 0).val * 32 + 31, ht⟩
    have e0' : win0_2.index ⟨(i 0).val * 32 + 31, ht⟩ 0 = ((i 0).val * 32 + 31) / 32 := e0
    match a with
    | ⟨0, _⟩ =>
      show win0_2.index ⟨(i 0).val * 32 + 31, ht⟩ 0 * 1 ≤ (i 0).val
        ∧ (i 0).val < win0_2.index ⟨(i 0).val * 32 + 31, ht⟩ 0 * 1 + win0_2.xsize (grid0.coords ⟨(i 0).val * 32 + 31, ht⟩) 0
      rw [e0', s0]; omega
    | ⟨1, _⟩ =>
      show win0_2.index ⟨(i 0).val * 32 + 31, ht⟩ 1 * 128 ≤ (i 1).val
        ∧ (i 1).val < win0_2.index ⟨(i 0).val * 32 + 31, ht⟩ 1 * 128 + win0_2.xsize (grid0.coords ⟨(i 0).val * 32 + 31, ht⟩) 1
      rw [e1, s1]; omega
    | ⟨2, _⟩ =>
      show win0_2.index ⟨(i 0).val * 32 + 31, ht⟩ 2 * 1 ≤ (i 2).val
        ∧ (i 2).val < win0_2.index ⟨(i 0).val * 32 + 31, ht⟩ 2 * 1 + win0_2.xsize (grid0.coords ⟨(i 0).val * 32 + 31, ht⟩) 2
      rw [e2, s2]; omega

/-- Output 1's block index at a point: the point's half; whole in the other two axes. -/
theorem idxO3 : ∀ t : Fin cfg0.N, win0_3.index t 0 = t.val / 32 ∧ win0_3.index t 1 = 0 ∧ win0_3.index t 2 = 0 :=
  (by decide +kernel : ∀ t : Fin grid0.N, win0_3.index t 0 = t.val / 32 ∧ win0_3.index t 1 = 0 ∧ win0_3.index t 2 = 0)
theorem xsO3 : ∀ t : Fin cfg0.N, win0_3.xsize (grid0.coords t) 0 = 1 ∧ win0_3.xsize (grid0.coords t) 1 = 128
    ∧ win0_3.xsize (grid0.coords t) 2 = 1 :=
  (by decide +kernel : ∀ t : Fin grid0.N, win0_3.xsize (grid0.coords t) 0 = 1 ∧ win0_3.xsize (grid0.coords t) 1 = 128
    ∧ win0_3.xsize (grid0.coords t) 2 = 1)

/-- What output 1's array ends holding: at (half, row) the half's 32 row counts of that row added up. -/
abbrev G3 (c : Dev nD) : Buf (Elt Ideal) ((c : Thread nD τ).loc main_v2_1) := colArr (rowL m c)

/-- The block written back at the last step of a half is that array's block. -/
theorem flushed3_eq (c : Dev nD) (t : Fin cfg0.N) (hf : (cfg0.win 3).flush t = true) :
    (dats m 0 c).flushed 3 t = ((cfg0.win 3).blk t).view.read (Elt Ideal) (G3 m c) := by
  have h31 : t.val % 32 = 31 := (flush0_3 t).mp hf
  show (cfg0.win 3).cut (grid0.coords t) ((dats m 0 c).after 3 t) = _
  rw [after0_3, (out_eq m c t h31).2.1]
  funext y
  rw [View.read_apply]
  refine (slab k0_pay3 pay3_apply (accV m c t.val t.isLt).2.1 ((cfg0.win 3).xinj (grid0.coords t) y)).trans ?_
  refine ((acc_apply m c _ 0 t.val t.isLt).2.1).trans ?_
  refine accum_congr (rowL m c) ?_ ?_
  · show (y 1).val = win0_3.index t 1 * 128 + 1 * (y 1).val
    rw [(idxO3 t).2.1]; omega
  · have h0 : (y 0).val < 1 := (y 0).isLt
    show t.val = (win0_3.index t 0 * 1 + 1 * (y 0).val) * 32 + 31
    rw [(idxO3 t).1]; omega

/-- The two write-backs (one per half) cover the array, so it ends holding that. -/
theorem final3 (c : Dev nD) : (dats m 0 c).arrAt 3 cfg0.N = G3 m c :=
  (dats m 0 c).arrAt_eq_of_cover 3 (G3 m c) (flushed3_eq m c) fun i => by
    have hN : cfg0.N = 64 := N_0
    have h0 : (i 0).val < 2 := (i 0).isLt
    have h1 : (i 1).val < 128 := (i 1).isLt
    have h2 : (i 2).val < 1 := (i 2).isLt
    have ht : (i 0).val * 32 + 31 < cfg0.N := by rw [hN]; omega
    refine ⟨⟨(i 0).val * 32 + 31, ht⟩, (flush0_3 _).mpr (by show ((i 0).val * 32 + 31) % 32 = 31; omega), ?_⟩
    show i ∈ ((View.whole main_v2_1).slice (win0_3.rect ⟨(i 0).val * 32 + 31, ht⟩)).set
    rw [View.set_slice_whole, Rect.mem_set_unit]
    intro a
    obtain ⟨e0, e1, e2⟩ := idxO3 ⟨(i 0).val * 32 + 31, ht⟩
    obtain ⟨s0, s1, s2⟩ := xsO3 ⟨(i 0).val * 32 + 31, ht⟩
    have e0' : win0_3.index ⟨(i 0).val * 32 + 31, ht⟩ 0 = ((i 0).val * 32 + 31) / 32 := e0
    match a with
    | ⟨0, _⟩ =>
      show win0_3.index ⟨(i 0).val * 32 + 31, ht⟩ 0 * 1 ≤ (i 0).val
        ∧ (i 0).val < win0_3.index ⟨(i 0).val * 32 + 31, ht⟩ 0 * 1 + win0_3.xsize (grid0.coords ⟨(i 0).val * 32 + 31, ht⟩) 0
      rw [e0', s0]; omega
    | ⟨1, _⟩ =>
      show win0_3.index ⟨(i 0).val * 32 + 31, ht⟩ 1 * 128 ≤ (i 1).val
        ∧ (i 1).val < win0_3.index ⟨(i 0).val * 32 + 31, ht⟩ 1 * 128 + win0_3.xsize (grid0.coords ⟨(i 0).val * 32 + 31, ht⟩) 1
      rw [e1, s1]; omega
    | ⟨2, _⟩ =>
      show win0_3.index ⟨(i 0).val * 32 + 31, ht⟩ 2 * 1 ≤ (i 2).val
        ∧ (i 2).val < win0_3.index ⟨(i 0).val * 32 + 31, ht⟩ 2 * 1 + win0_3.xsize (grid0.coords ⟨(i 0).val * 32 + 31, ht⟩) 2
      rw [e2, s2]; omega

/-- Output 2's block index at a point: the point's half; whole in the other two axes. -/
theorem idxO4 : ∀ t : Fin cfg0.N, win0_4.index t 0 = t.val / 32 ∧ win0_4.index t 1 = 0 ∧ win0_4.index t 2 = 0 :=
  (by decide +kernel : ∀ t : Fin grid0.N, win0_4.index t 0 = t.val / 32 ∧ win0_4.index t 1 = 0 ∧ win0_4.index t 2 = 0)
theorem xsO4 : ∀ t : Fin cfg0.N, win0_4.xsize (grid0.coords t) 0 = 1 ∧ win0_4.xsize (grid0.coords t) 1 = 128
    ∧ win0_4.xsize (grid0.coords t) 2 = 1 :=
  (by decide +kernel : ∀ t : Fin grid0.N, win0_4.xsize (grid0.coords t) 0 = 1 ∧ win0_4.xsize (grid0.coords t) 1 = 128
    ∧ win0_4.xsize (grid0.coords t) 2 = 1)

/-- What output 2's array ends holding: at (half, row) the half's 32 row counts of that row added up. -/
abbrev G4 (c : Dev nD) : Buf (Elt Ideal) ((c : Thread nD τ).loc main_v2_2) := colArr (rowTL m c)

/-- The block written back at the last step of a half is that array's block. -/
theorem flushed4_eq (c : Dev nD) (t : Fin cfg0.N) (hf : (cfg0.win 4).flush t = true) :
    (dats m 0 c).flushed 4 t = ((cfg0.win 4).blk t).view.read (Elt Ideal) (G4 m c) := by
  have h31 : t.val % 32 = 31 := (flush0_4 t).mp hf
  show (cfg0.win 4).cut (grid0.coords t) ((dats m 0 c).after 4 t) = _
  rw [after0_4, (out_eq m c t h31).2.2]
  funext y
  rw [View.read_apply]
  refine (slab k0_pay4 pay4_apply (accV m c t.val t.isLt).2.2 ((cfg0.win 4).xinj (grid0.coords t) y)).trans ?_
  refine ((acc_apply m c _ 0 t.val t.isLt).2.2).trans ?_
  refine accum_congr (rowTL m c) ?_ ?_
  · show (y 1).val = win0_4.index t 1 * 128 + 1 * (y 1).val
    rw [(idxO4 t).2.1]; omega
  · have h0 : (y 0).val < 1 := (y 0).isLt
    show t.val = (win0_4.index t 0 * 1 + 1 * (y 0).val) * 32 + 31
    rw [(idxO4 t).1]; omega

/-- The two write-backs (one per half) cover the array, so it ends holding that. -/
theorem final4 (c : Dev nD) : (dats m 0 c).arrAt 4 cfg0.N = G4 m c :=
  (dats m 0 c).arrAt_eq_of_cover 4 (G4 m c) (flushed4_eq m c) fun i => by
    have hN : cfg0.N = 64 := N_0
    have h0 : (i 0).val < 2 := (i 0).isLt
    have h1 : (i 1).val < 128 := (i 1).isLt
    have h2 : (i 2).val < 1 := (i 2).isLt
    have ht : (i 0).val * 32 + 31 < cfg0.N := by rw [hN]; omega
    refine ⟨⟨(i 0).val * 32 + 31, ht⟩, (flush0_4 _).mpr (by show ((i 0).val * 32 + 31) % 32 = 31; omega), ?_⟩
    show i ∈ ((View.whole main_v2_2).slice (win0_4.rect ⟨(i 0).val * 32 + 31, ht⟩)).set
    rw [View.set_slice_whole, Rect.mem_set_unit]
    intro a
    obtain ⟨e0, e1, e2⟩ := idxO4 ⟨(i 0).val * 32 + 31, ht⟩
    obtain ⟨s0, s1, s2⟩ := xsO4 ⟨(i 0).val * 32 + 31, ht⟩
    have e0' : win0_4.index ⟨(i 0).val * 32 + 31, ht⟩ 0 = ((i 0).val * 32 + 31) / 32 := e0
    match a with
    | ⟨0, _⟩ =>
      show win0_4.index ⟨(i 0).val * 32 + 31, ht⟩ 0 * 1 ≤ (i 0).val
        ∧ (i 0).val < win0_4.index ⟨(i 0).val * 32 + 31, ht⟩ 0 * 1 + win0_4.xsize (grid0.coords ⟨(i 0).val * 32 + 31, ht⟩) 0
      rw [e0', s0]; omega
    | ⟨1, _⟩ =>
      show win0_4.index ⟨(i 0).val * 32 + 31, ht⟩ 1 * 128 ≤ (i 1).val
        ∧ (i 1).val < win0_4.index ⟨(i 0).val * 32 + 31, ht⟩ 1 * 128 + win0_4.xsize (grid0.coords ⟨(i 0).val * 32 + 31, ht⟩) 1
      rw [e1, s1]; omega
    | ⟨2, _⟩ =>
      show win0_4.index ⟨(i 0).val * 32 + 31, ht⟩ 2 * 1 ≤ (i 2).val
        ∧ (i 2).val < win0_4.index ⟨(i 0).val * 32 + 31, ht⟩ 2 * 1 + win0_4.xsize (grid0.coords ⟨(i 0).val * 32 + 31, ht⟩) 2
      rw [e2, s2]; omega

end Cert.KernelIdeal.Outputs

end
-- ==== Proof.Totals.lean ====
import proofs.«178757_j26594437496976_2_alg».proof.Proof.Gen.KernelIdeal.Frame
import Idealize.ShloMosaic.Lib.Pipeline.Value
import Idealize.ShloMosaic.Lib.Tactic
import proofs.«178757_j26594437496976_2_alg».proof.Proof.Outputs
import proofs.«178757_j26594437496976_2_alg».proof.Proof.LibIdxSums
import Idealize.ShloMosaic.Lib.StableHlo.Run

noncomputable section

open Idealize.ShloMosaic Idealize.ShloMosaic.TcCoe Idealize.SL.Sem
open Idealize.ShloMosaic.Pipeline (Dat)

/-! The three totals the host takes of the output arrays.

After the region the host adds up each [2, 128, 1] output from zero. Entry (half, row) is the half's 32 row counts of
that row, a row count is a sum over the row's 8192 entries, and rows, blocks and halves tile the 2^26 flat positions in
order: the total is the sum over all positions — of [t ≠ 0], of [l ≠ 0], and of their product. -/

namespace Cert.KernelIdeal.Totals

open Cert.KernelIdeal Cert.KernelIdeal.Gen Cert.KernelIdeal.Payload Cert.KernelIdeal.Accum Cert.KernelIdeal.Outputs Cert.Fbeta
open Idealize.ShloMosaic.ValueIdx
open scoped BigOperators

/-- Adding up all entries of a per-half column array whose row counts are row sums of `g`: the sum of `g` over all positions. -/
theorem total (g : ℕ → EReal) :
    ∑ i : S2x128x1.Idx, colArr (fun r k => ∑ col : Fin 8192, g ((k * 128 + r.val) * 8192 + col.val)) i
      = ∑ v ∈ Finset.range 67108864, g v := by
  rw [sum_idx3]
  simp only [colArr_ix3, accum_last, Fintype.sum_unique]
  exact sum_by_blocks g

/-- The host's sum of such an array over its three axes, from zero. -/
theorem hostTotal (g : ℕ → EReal) (h' : S2x128x1.ReducesTo [0, 1, 2] S_) (hu : 0 < S_.numel) :
    Host.reduceAdd (F := Ideal) (colArr (fun r k => ∑ col : Fin 8192, g ((k * 128 + r.val) * 8192 + col.val)))
        (constant (F := Ideal) S_ .f32 0x00000000#32) h' hu
      = fun _ => ∑ v ∈ Finset.range 67108864, g v := by
  funext i
  simp only [Host.reduceAdd, Ideal.hostReduceAdd_def]
  rw [Ideal.hostReduceAdd_total h' (fun b => b.elim0) _ _ i, total g]
  show Ideal.ofBits .f32 0x00000000#32 + _ = _
  rw [Ideal.ofBits_zero_f32, zero_add]

variable (m : (ℓ : Loc nD τ sig) → Buf (Elt Ideal) ℓ)

/-- The three totals: ∑ [t ≠ 0], ∑ [l ≠ 0], ∑ [t ≠ 0]·[l ≠ 0] over the 2^26 positions. -/
theorem total2 (c : Dev nD) (h' : S2x128x1.ReducesTo [0, 1, 2] S_) (hu : 0 < S_.numel) :
    Host.reduceAdd (F := Ideal) (G2 m c) (constant (F := Ideal) S_ .f32 0x00000000#32) h' hu
      = fun _ => sumA (T m c) 67108864 :=
  hostTotal (fun v => ind (T m c v)) h' hu
theorem total3 (c : Dev nD) (h' : S2x128x1.ReducesTo [0, 1, 2] S_) (hu : 0 < S_.numel) :
    Host.reduceAdd (F := Ideal) (G3 m c) (constant (F := Ideal) S_ .f32 0x00000000#32) h' hu
      = fun _ => sumB (L m c) 67108864 :=
  hostTotal (fun v => ind (L m c v)) h' hu
theorem total4 (c : Dev nD) (h' : S2x128x1.ReducesTo [0, 1, 2] S_) (hu : 0 < S_.numel) :
    Host.reduceAdd (F := Ideal) (G4 m c) (constant (F := Ideal) S_ .f32 0x00000000#32) h' hu
      = fun _ => sumAB (T m c) (L m c) 67108864 :=
  hostTotal (fun v => ind (T m c v) * ind (L m c v)) h' hu

end Cert.KernelIdeal.Totals

end
-- ==== Proof.Tail.lean ====
import proofs.«178757_j26594437496976_2_alg».proof.Proof.Gen.KernelIdeal.Frame
import Idealize.ShloMosaic.Lib.Pipeline.Value
import Idealize.ShloMosaic.Lib.Tactic
import proofs.«178757_j26594437496976_2_alg».proof.Proof.Totals
import proofs.«178757_j26594437496976_2_alg».proof.Proof.LibIdxSums
import Idealize.ShloMosaic.Lib.StableHlo.Run

noncomputable section

open Idealize.ShloMosaic Idealize.ShloMosaic.TcCoe Idealize.SL.Sem
open Idealize.ShloMosaic.Pipeline (Dat)

/-! The idealized kernel's result.

After the region the host adds up the three outputs and computes the score from the totals: true positives
∑ a·b, false positives ∑ a − ∑ a·b, false negatives ∑ b − ∑ a·b (a, b the thresholded arguments), each plus the small
constant. So the program ends with its result at the score of its two arguments, which are left as they were. -/

namespace Cert.KernelIdeal.Tail

open Cert.KernelIdeal Cert.KernelIdeal.Gen Cert.KernelIdeal.Accum Cert.KernelIdeal.Outputs Cert.KernelIdeal.Totals Cert.Fbeta
open scoped BigOperators

variable (m : (ℓ : Loc nD τ sig) → Buf (Elt Ideal) ℓ) (ρ : Dev nD → PrngReg)

set_option maxHeartbeats 2000000 in
/-- The host lines after the region, applied to the three output arrays, give the score. -/
theorem tail_eq (c : Dev nD) :
    Pipeline.afterTail₀ cfgs (dats m) 0 (V0 m) [hostOps1] c main_v19 = score (T m c) (L m c) := by
  have w2 : Pipeline.withArrays (cfgs 0).spec c (V0 m c) (fun w => (dats m 0 c).arrAt w (cfgs 0).N) (Proc.devRef .tc main_v2_0)
      = G2 m c := (Pipeline.withArrays_arr spec0 launch0.win.arr_inj c _ _ 2).trans (final2 m c)
  have w3 : Pipeline.withArrays (cfgs 0).spec c (V0 m c) (fun w => (dats m 0 c).arrAt w (cfgs 0).N) (Proc.devRef .tc main_v2_1)
      = G3 m c := (Pipeline.withArrays_arr spec0 launch0.win.arr_inj c _ _ 3).trans (final3 m c)
  have w4 : Pipeline.withArrays (cfgs 0).spec c (V0 m c) (fun w => (dats m 0 c).arrAt w (cfgs 0).N) (Proc.devRef .tc main_v2_2)
      = G4 m c := (Pipeline.withArrays_arr spec0 launch0.win.arr_inj c _ _ 4).trans (final4 m c)
  unfold Pipeline.afterTail₀
  simp only [List.flatten_cons, List.flatten_nil, List.append_nil]
  after_results
  rw [w2, w3, w4, total2 m c, total3 m c, total4 m c]
  rfl

/-- The run, read: the result at the score of the arguments, the arguments unchanged. -/
theorem run : θ_run defs (onTc (τ := τ) (main (F := Ideal))) ⟨m, fun _ => 0, ρ⟩ fun r => ∀ c : Dev nD,
      r.2.mem ((c.tc : Thread nD τ).loc main_v19) = score (T m c) (L m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v19 (Pipeline.mem_restRefs_of main_v19 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Tail

end
-- ==== Proof.RefValue.lean ====
/-
  The reference program's result, read as mathematics.

  The reference flattens each argument to its 2^26 entries, thresholds them to the bits [l ≠ 0] and [t ≠ 0], and counts
  three conjunctions entry by entry: "l and t", "not l, and t", "l, and not t". Each count is a host sum from zero of the
  conjunction's bit read as 0 or 1. The three counts, each plus the small constant, go through the score formula.
-/
import proofs.«178757_j26594437496976_2_alg».proof.Proof.Gen.ReferenceIdeal.Read
import proofs.«178757_j26594437496976_2_alg».proof.Proof.Spec
import proofs.«178757_j26594437496976_2_alg».proof.Proof.LibIdxSums

noncomputable section

namespace Cert.ReferenceIdeal.RefValue

open Cert.ReferenceIdeal Cert.ReferenceIdeal.Read Cert.Fbeta Idealize.ShloMosaic Idealize.ShloMosaic.ValueIdx
open scoped BigOperators

variable (x0 x1 : (⟨S1x67108864, .f32⟩ : BufTy).Contents (Elt Ideal))

/-- Entry `j` of a flattened argument is the argument's flat position `j`. -/
theorem idx_v0 (j : S67108864.Idx) :
    idx_main_v0 j = ix2 (0 : Fin 1) (⟨(j 0).val % 67108864, Nat.mod_lt _ (by decide)⟩ : Fin 67108864) := by
  funext a
  match a with
  | ⟨0, _⟩ => rfl
  | ⟨1, _⟩ => rfl
theorem idx_v1 (j : S67108864.Idx) :
    idx_main_v1 j = ix2 (0 : Fin 1) (⟨(j 0).val % 67108864, Nat.mod_lt _ (by decide)⟩ : Fin 67108864) := by
  funext a
  match a with
  | ⟨0, _⟩ => rfl
  | ⟨1, _⟩ => rfl

/-- The bit [l ≠ 0] at entry `j`. -/
theorem v3_at (j : S67108864.Idx) : val_main_v3 (F := Ideal) x1 j = nz (flat x1 (j 0).val) := by
  rw [val_main_v3_apply, val_main_v1_apply, val_main_v2_apply, val_main_cst_apply, idx_v1]
  rfl
/-- The bit [t ≠ 0] at entry `j`. -/
theorem v5_at (j : S67108864.Idx) : val_main_v5 (F := Ideal) x0 j = nz (flat x0 (j 0).val) := by
  rw [val_main_v5_apply, val_main_v0_apply, val_main_v4_apply, val_main_cst_0_apply, idx_v0]
  rfl

/-- "l and t" at entry `j`, as 0 or 1. -/
theorem v7_at (j : S67108864.Idx) : val_main_v7 (F := Ideal) x0 x1 j
    = ((bitR (IntOp.andi (nz (flat x1 (j 0).val)) (nz (flat x0 (j 0).val))) : ℝ) : EReal) := by
  rw [val_main_v7_apply, val_main_v6_apply, v3_at, v5_at]
  rfl
/-- "not l, and t". -/
theorem v12_at (j : S67108864.Idx) : val_main_v12 (F := Ideal) x0 x1 j
    = ((bitR (IntOp.andi (~~~(nz (flat x1 (j 0).val))) (nz (flat x0 (j 0).val))) : ℝ) : EReal) := by
  rw [val_main_v12_apply, val_main_v11_apply, val_main_v10_apply, v3_at, v5_at]
  rfl
/-- "l, and not t". -/
theorem v17_at (j : S67108864.Idx) : val_main_v17 (F := Ideal) x0 x1 j
    = ((bitR (IntOp.andi (nz (flat x1 (j 0).val)) (~~~(nz (flat x0 (j 0).val)))) : ℝ) : EReal) := by
  rw [val_main_v17_apply, val_main_v16_apply, val_main_v15_apply, v3_at, v5_at]
  rfl

/-- A sum over the flattened array's entries is the sum over the flat positions. -/
theorem sum_flat (g : ℕ → EReal) : ∑ j : S67108864.Idx, g (j 0).val = ∑ v ∈ Finset.range 67108864, g v :=
  (sum_idx1 (fun j : S67108864.Idx => g (j 0).val)).trans (Finset.sum_range g).symm

/-- The three counts. -/
theorem v8_eq : val_main_v8 (F := Ideal) x0 x1 = fun _ => sumAB (flat x0) (flat x1) 67108864 := by
  funext i
  rw [val_main_v8_apply, val_main_cst_1_apply,
    show FloatOps.ofBits (F := Ideal) .f32 0x00000000#32 = (0 : EReal) from Ideal.ofBits_zero_f32, zero_add]
  simp only [v7_at]
  exact (sum_flat (fun v => ((bitR (IntOp.andi (nz (flat x1 v)) (nz (flat x0 v))) : ℝ) : EReal))).trans
    (count_tp (flat x0) (flat x1) 67108864)
theorem v13_eq : val_main_v13 (F := Ideal) x0 x1
    = fun _ => sumA (flat x0) 67108864 - sumAB (flat x0) (flat x1) 67108864 := by
  funext i
  rw [val_main_v13_apply, val_main_cst_3_apply,
    show FloatOps.ofBits (F := Ideal) .f32 0x00000000#32 = (0 : EReal) from Ideal.ofBits_zero_f32, zero_add]
  simp only [v12_at]
  exact (sum_flat (fun v => ((bitR (IntOp.andi (~~~(nz (flat x1 v))) (nz (flat x0 v))) : ℝ) : EReal))).trans
    (count_fp (flat x0) (flat x1) 67108864)
theorem v18_eq : val_main_v18 (F := Ideal) x0 x1
    = fun _ => sumB (flat x1) 67108864 - sumAB (flat x0) (flat x1) 67108864 := by
  funext i
  rw [val_main_v18_apply, val_main_cst_5_apply,
    show FloatOps.ofBits (F := Ideal) .f32 0x00000000#32 = (0 : EReal) from Ideal.ofBits_zero_f32, zero_add]
  simp only [v17_at]
  exact (sum_flat (fun v => ((bitR (IntOp.andi (nz (flat x1 v)) (~~~(nz (flat x0 v)))) : ℝ) : EReal))).trans
    (count_fn (flat x0) (flat x1) 67108864)

/-- The reference's result is the score of its two arguments. -/
theorem result_eq : val_main_v28 (F := Ideal) x0 x1 = score (flat x0) (flat x1) := by
  unfold val_main_v28 val_main_v25 val_main_v27 val_main_v24 val_main_v26 val_main_v21 val_main_v23 val_main_v20 val_main_v22
    val_main_v9 val_main_v14 val_main_v19
  rw [v8_eq, v13_eq, v18_eq]
  rfl

end Cert.ReferenceIdeal.RefValue

end
-- ==== Proof.lean ====
/-
  A streaming F-beta score on TPU against its jnp reference: the proof of `Cert.Claim`.

  Both programs threshold two arrays of 2^26 numbers to the indicators a = [t ≠ 0], b = [l ≠ 0] and compute
  26·(p·q) / (25·p + q) with p = tp / (tp + fp), q = tp / (tp + fn), each count increased by a small constant.
  The reference counts the three conjunctions entry by entry: tp = ∑ [l ∧ t], fp = ∑ [¬l ∧ t], fn = ∑ [l ∧ ¬t].
  The kernel views each array as 64 row blocks of 128 × 8192, gives 32 blocks to each of two halves of its grid, keeps
  per half three columns of running row sums (of a, of b, of a·b) which it clears at a half's first step and copies
  out at its last; the host then adds up the three outputs and takes tp = ∑ a·b, fp = ∑ a − ∑ a·b, fn = ∑ b − ∑ a·b.
  Over the extended reals every count is a finite sum of zeros and ones, so [q ∧ p] = p·q, [¬q ∧ p] = p − p·q and the
  regrouping of the sums by rows, blocks and halves are all exact: the two results are the same number, whatever
  extended reals the inputs hold (the precondition is not needed for the value).

  The modules: Spec (the mathematics: bits as numbers, the counts both ways, the restarting running sum, the order of
  summation, the score), Pieces (what each case of the kernel body leaves in its buffers), Payload (the body's
  arithmetic at one entry), Blocks (where a block's entry sits in the arguments), Accum (the running sums point by
  point), Outputs (the three output arrays after the region), Totals (their totals), Tail (the host lines after the
  region: the kernel's result is the score), RefValue (the reference's result is the score). The runs of the three
  programs are the generated ones; the kernel rewrote nothing when idealized.
-/
import proofs.«178757_j26594437496976_2_alg».proof.Defs
import proofs.«178757_j26594437496976_2_alg».proof.Proof.Gen.Kernel
import proofs.«178757_j26594437496976_2_alg».proof.Proof.Gen.Kernel.Frame
import proofs.«178757_j26594437496976_2_alg».proof.Proof.Gen.KernelIdeal
import proofs.«178757_j26594437496976_2_alg».proof.Proof.Gen.KernelIdeal.Frame
import proofs.«178757_j26594437496976_2_alg».proof.Proof.Gen.ReferenceIdeal
import proofs.«178757_j26594437496976_2_alg».proof.Proof.Gen.Pre_finite_inputs
import proofs.«178757_j26594437496976_2_alg».proof.Proof.Gen.ReferenceIdeal.Run
import proofs.«178757_j26594437496976_2_alg».proof.Proof.Gen.ReferenceIdeal.Read
import proofs.«178757_j26594437496976_2_alg».proof.Proof.Tail
import proofs.«178757_j26594437496976_2_alg».proof.Proof.RefValue
import Idealize.ShloMosaic.Adequacy
import Idealize.ShloMosaic.Init

noncomputable section

namespace Cert.Proof

open Idealize.ShloMosaic Idealize.SL.Sem Cert.Fbeta

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- Both idealized programs end at the score of their arguments, which agree. -/
theorem algebraic : Cert.algebraic_KernelIdeal_ReferenceIdeal := by
  intro m ρ m' ρ' _ hagree
  refine ⟨fun c => score (Cert.KernelIdeal.Accum.T m c) (Cert.KernelIdeal.Accum.L m c), Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v28 m' c = score (Cert.KernelIdeal.Accum.T m c) (Cert.KernelIdeal.Accum.L m c)
  rw [Cert.ReferenceIdeal.Read.val_main_v28_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
